-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x64 .f32) (main_arg7 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x64 .f32 := Host.absf main_arg6
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x512 .f32) (main_arg3 : FVec F S512 .f32) (main_arg4 : FVec F S512x512 .f32) (main_arg5 : FVec F S512 .f32) (main_arg6 : FVec F S512x64 .f32) (main_arg7 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S1x64 : Shape := ⟨2, ![1, 64]⟩
abbrev S512x4096 : Shape := ⟨2, ![512, 4096]⟩
abbrev S4096x64 : Shape := ⟨2, ![4096, 64]⟩

abbrev nBuf : Space → Nat
  | .hbm => 19
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S4096x512, .bf16⟩
  | .hbm, ⟨9, _⟩ => ⟨S512x512, .bf16⟩
  | .hbm, ⟨10, _⟩ => ⟨S512x512, .bf16⟩
  | .hbm, ⟨11, _⟩ => ⟨S512x64, .bf16⟩
  | .hbm, ⟨12, _⟩ => ⟨S1x512, .f32⟩
  | .hbm, ⟨13, _⟩ => ⟨S1x512, .f32⟩
  | .hbm, ⟨14, _⟩ => ⟨S1x64, .f32⟩
  | .hbm, ⟨15, _⟩ => ⟨S4096x4096, .bf16⟩
  | .hbm, ⟨16, _⟩ => ⟨S4096x512, .bf16⟩
  | .hbm, ⟨17, _⟩ => ⟨S4096x64, .bf16⟩
  | .hbm, ⟨18, _⟩ => ⟨S4096x64, .f32⟩
  | .local _ .vmem, ⟨0, _⟩ => ⟨S4096x512, .bf16⟩
  | .local _ .vmem, ⟨1, _⟩ => ⟨S512x512, .bf16⟩
  | .local _ .vmem, ⟨2, _⟩ => ⟨S1x512, .f32⟩
  | .local _ .vmem, ⟨3, _⟩ => ⟨S512x512, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S512x512, .bf16⟩
  | .local _ .vmem, ⟨9, _⟩ => ⟨S512x512, .bf16⟩
  | .local _ .vmem, ⟨10, _⟩ => ⟨S4096x512, .bf16⟩
  | .local _ .vmem, ⟨11, _⟩ => ⟨S512x4096, .bf16⟩
  | .local _ .vmem, ⟨12, _⟩ => ⟨S512x4096, .bf16⟩
  | .local _ .vmem, ⟨13, _⟩ => ⟨S4096x512, .bf16⟩
  | .local _ .vmem, ⟨14, _⟩ => ⟨S1x512, .f32⟩
  | .local _ .vmem, ⟨15, _⟩ => ⟨S512x64, .bf16⟩
  | .local _ .vmem, ⟨16, _⟩ => ⟨S512x64, .bf16⟩
  | .local _ .vmem, ⟨17, _⟩ => ⟨S512x64, .bf16⟩
  | .local _ .vmem, ⟨18, _⟩ => ⟨S512x4096, .bf16⟩
  | .local _ .vmem, ⟨19, _⟩ => ⟨S512x4096, .bf16⟩
  | .local _ .vmem, ⟨20, _⟩ => ⟨S4096x64, .bf16⟩
  | .local _ .vmem, ⟨21, _⟩ => ⟨S1x64, .f32⟩
  | .local _ .vmem, ⟨22, _⟩ => ⟨S512x64, .f32⟩
  | .local _ .vmem, ⟨23, _⟩ => ⟨S512x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S512_S1x512 : S512.ShapeCasts S1x512
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S4096x512_S4096x512_0_0 : (Rect.unit (s := S4096x512) ![0, 0] S4096x512.size inb_S4096x512_S4096x512_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  shapeCasts_S512x4096_S512x4096 : S512x4096.ShapeCasts S512x4096
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  dot_S4096x512_S512x512_S4096x512_1_0_0_1_n_n_wf : DotDims.WF S4096x512 S512x512 S4096x512 [1] [0] [0] [1] [] []
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  dot_S512x512_S512x64_S512x64_1_0_0_1_n_n_wf : DotDims.WF S512x512 S512x64 S512x64 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S4096x4096.size a
  hwx0_5 : ∀ i : grid0.Coords, EltTy.bits .bf16 = 32 ∨ (Rect.block (s := S4096x4096) S512x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x512.size a
  hwx0_6 : ∀ i : grid0.Coords, EltTy.bits .bf16 = 32 ∨ (Rect.block (s := S4096x512) S512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .bf16 = 32 ∨ (Rect.block (s := S512x64) S512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S4096x64.size a
  hwx1_4 : ∀ i : grid1.Coords, EltTy.bits .bf16 = 32 ∨ (Rect.block (s := S4096x64) S512x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .bf16 = 32 ∨ (Rect.block (s := S4096x64) S4096x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7_0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S_ : Shape := ⟨0, ![]⟩
abbrev S4096x64 : Shape := ⟨2, ![4096, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S4096x512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x64, .f32⟩
  | .hbm, ⟨25, _⟩ => ⟨S4096x64, .f32⟩
  | .hbm, ⟨26, _⟩ => ⟨S1x64, .f32⟩
  | .hbm, ⟨27, _⟩ => ⟨S4096x64, .f32⟩
  | .hbm, ⟨28, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x64_S4096x64_1_0_0_1_n_n_wf : DotDims.WF S4096x512 S512x64 S4096x64 [1] [0] [0] [1] [] []
  dot_S4096x4096_S4096x64_S4096x64_1_0_0_1_n_n_wf : DotDims.WF S4096x4096 S4096x64 S4096x64 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Stage1.lean ====
import proofs.«155964_g13073880449845_cont_fleet_838_2_alg».proof.Proof.Gen.Kernel.Launch
import proofs.«155964_g13073880449845_cont_fleet_838_2_alg».proof.Proof.Gen.Kernel.Skeleton
import proofs.«155964_g13073880449845_cont_fleet_838_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The first call.  Each grid point takes a band of 512 rows of the adjacency `A`; the features, the two weight
  matrices and the first bias row are whole blocks that never move.  The FIRST point also computes `X · W0` into a
  scratch buffer that every later point reads: the scratch is carried from point to point, holding the same
  matrix after every point.  Every point writes its band of the rounded adjacency and its band of
  `relu (A · (X · W0) + b0) · W1`.  Stated at a parameter `V`: what the core's arrays hold when the call is entered.
-/

/-- "This is the grid's first point", as the body computes it from the point's coordinate. -/
abbrev onFirst (i : grid0.Coords) : Prop :=
  (Scalar.cmpi .ne (Scalar.extui (Scalar.cmpi .eq (BitVec.ofNat 32 (i 0).val) 0#32)) 0#32) = 1#1

theorem onFirst_iff : ∀ t : Fin cfg0.N, onFirst (grid0.coords t) ↔ t.val = 0 :=
  (by decide +kernel : ∀ t : Fin grid0.N, onFirst (grid0.coords t) ↔ t.val = 0)

/-- The scratch buffer, whole. -/
abbrev scr : Memref sig .tc .vmem S4096x512 .bf16 := Memref.whole cc0_scratch0

/-- The whole-buffer rectangles the body reads and writes through. -/
abbrev r0X : Rect S4096x512 := Rect.unit (s := S4096x512) ![0, 0] S4096x512.size inb_S4096x512_S4096x512_0_0
abbrev r0W : Rect S512x512 := Rect.unit (s := S512x512) ![0, 0] S512x512.size inb_S512x512_S512x512_0_0
abbrev r0B : Rect S1x512 := Rect.unit (s := S1x512) ![0, 0] S1x512.size inb_S1x512_S1x512_0_0
abbrev r0A : Rect S512x4096 := Rect.unit (s := S512x4096) ![0, 0] S512x4096.size inb_S512x4096_S512x4096_0_0

/-- Every one of them starts at the origin. -/
theorem origin2 : (![0, 0] : Fin 2 → Nat) = fun _ => 0 := funext fun a => by
  match a with
  | ⟨0, _⟩ => rfl
  | ⟨1, _⟩ => rfl

/-- One whole-buffer store covers its buffer. -/
theorem coverX (p0 : Vec F S4096x512 .bf16) (y : S4096x512.Idx) :
    ∃ pc ∈ ([⟨r0X, p0⟩] : List (View.Piece (Elt F) S4096x512 .bf16)), y ∈ pc.1.set :=
  View.cover_of_tiled [⟨r0X, p0⟩] S4096x512.size (by rfl) y
theorem coverA (p0 : Vec F S512x4096 .bf16) (y : S512x4096.Idx) :
    ∃ pc ∈ ([⟨r0A, p0⟩] : List (View.Piece (Elt F) S512x4096 .bf16)), y ∈ pc.1.set :=
  View.cover_of_tiled [⟨r0A, p0⟩] S512x4096.size (by rfl) y
theorem coverW (p0 : Vec F S512x512 .bf16) (y : S512x512.Idx) :
    ∃ pc ∈ ([⟨r0W, p0⟩] : List (View.Piece (Elt F) S512x512 .bf16)), y ∈ pc.1.set :=
  View.cover_of_tiled [⟨r0W, p0⟩] S512x512.size (by rfl) y

set_option maxHeartbeats 2000000 in
/-- The body at the first point, on whole staging buffers: the inputs are read and kept; the scratch (holding
    anything) ends at `X · W0`, the two output bands at the rounded adjacency band and at the layer's band. -/
theorem runFirst (c : Dev nD) (E : Set ℕ) (i : grid0.Coords) (hc : onFirst i)
    (arg1 : Memref sig .tc .vmem S4096x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S512x4096 .f32) (harg5 : arg5.IsWhole) (arg6 : Memref sig .tc .vmem S512x4096 .bf16) (harg6 : arg6.IsWhole)
    (arg7 : Memref sig .tc .vmem S512x512 .bf16) (harg7 : arg7.IsWhole) (arg8 : Memref sig .tc .vmem S4096x512 .bf16) (harg8 : arg8.IsWhole)
    (x0 : Vec F S4096x512 .bf16) (x1 : Vec F S512x512 .bf16) (x2 : Vec F S1x512 .f32) (x3 : Vec F S512x512 .bf16) (x4 : Vec F S512x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay2 x4) ∗ owns (c : Thread nD τ) arg7 fullShare (k0_pay3 x4 (k0_pay1 x0 x1) x2 x3)
            ∗ owns (c : Thread nD τ) arg8 fullShare (k0_pay1 x0 x1)) -∗ K ⟨⟩))
      ⊢ wp frame (wpE (defs₀ (F := F)) Variants.none c none) E (cc0__stage1 i arg1 harg1 arg2 harg2 arg3 harg3 arg4 harg4 arg5 harg5 arg6 harg6 arg7 harg7 arg8 harg8) K := by
  simp only [cc0__stage1_eq_skeleton]; unfold cc0__stage1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverA _), View.canon_unit_zero origin2]
    simp only [View.readAt_eq_ld, View.ld_unit_zero (S := S512x4096) origin2]
  isplitl [H6]
  · iexists _; isplitr
    swap; · iexact H6
    ipureintro
    rw [View.read_writes_eq_canon _ _ _ (coverW _), View.canon_unit_zero origin2]
    sl_unfold_run_names
    simp only [View.readAt_eq_ld, View.ld_unit_zero (S := S512x4096) origin2,
      View.ld_unit_zero (S := S4096x512) origin2, View.ld_unit_zero (S := S512x512) origin2, View.ld_unit_zero (S := S1x512) origin2]
    rw [View.readCov_unit_zero (S := S4096x512) arg8.view origin2 inb_S4096x512_S4096x512_0_0]
  iexists _; isplitr
  swap; · iexact H7
  ipureintro
  sl_unfold_run_names
  rw [View.read_writes_eq_canon _ _ _ (coverX _), View.canon_unit_zero origin2]
  simp only [View.readAt_eq_ld, View.ld_unit_zero (S := S4096x512) origin2, View.ld_unit_zero (S := S512x512) origin2]

set_option maxHeartbeats 2000000 in
/-- The body at a later point: the scratch is read and kept at what it holds (`xs`). -/
theorem runLater (c : Dev nD) (E : Set ℕ) (i : grid0.Coords) (hc : ¬onFirst i)
    (arg1 : Memref sig .tc .vmem S4096x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S512x4096 .f32) (harg5 : arg5.IsWhole) (arg6 : Memref sig .tc .vmem S512x4096 .bf16) (harg6 : arg6.IsWhole)
    (arg7 : Memref sig .tc .vmem S512x512 .bf16) (harg7 : arg7.IsWhole) (arg8 : Memref sig .tc .vmem S4096x512 .bf16) (harg8 : arg8.IsWhole)
    (x0 : Vec F S4096x512 .bf16) (x1 : Vec F S512x512 .bf16) (x2 : Vec F S1x512 .f32) (x3 : Vec F S512x512 .bf16) (x4 : Vec F S512x4096 .f32)
    (xs : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay2 x4) ∗ owns (c : Thread nD τ) arg7 fullShare (k0_pay3 x4 xs x2 x3)
            ∗ owns (c : Thread nD τ) arg8 fullShare xs) -∗ K ⟨⟩))
      ⊢ wp frame (wpE (defs₀ (F := F)) Variants.none c none) E (cc0__stage1 i arg1 harg1 arg2 harg2 arg3 harg3 arg4 harg4 arg5 harg5 arg6 harg6 arg7 harg7 arg8 harg8) K := by
  simp only [cc0__stage1_eq_skeleton]; unfold cc0__stage1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0; subst hf1; subst hf2; subst hf3; subst hf4; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverA _), View.canon_unit_zero origin2]
    simp only [View.readAt_eq_ld, View.ld_unit_zero (S := S512x4096) origin2]
  isplitl [H6]
  · iexists _; isplitr
    swap; · iexact H6
    ipureintro
    rw [View.read_writes_eq_canon _ _ _ (coverW _), View.canon_unit_zero origin2]
    simp only [View.readAt_eq_ld, View.ld_unit_zero (S := S512x4096) origin2,
      View.ld_unit_zero (S := S4096x512) origin2, View.ld_unit_zero (S := S512x512) origin2, View.ld_unit_zero (S := S1x512) origin2]
  iexists f7; isplitr; · ipureintro; rfl
  iexact H7

variable (V : (c : Dev nD) → (b : Ref sig .tc) → Buf (Elt F) ((c : Thread nD τ).loc b))

/-- The block of window `w` that grid point `t` works on, cut out of the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds the window's block at every point, whether the point fetched it or the
   block index stood still since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- What the scratch holds after every point: the product of the feature block and the first weight block as the
    first point finds them. -/
def carried (c : Dev nD) : Vec F S4096x512 .bf16 := k0_pay1 (blk0 V c 0 t0_0) (blk0 V c 1 t0_0)

/-- The core's scoped buffers other than the scratch that no window of this call stages (the other calls' staging
    buffers), each whole at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))

/-- What the call holds between points when it is entered (the scoped buffers no window stages, at anything, and the generator register), with the scratch split off. -/
theorem PhiA_split (c : Dev nD) :
    (Pipeline.ΦA spec0 c : sProp 𝕄)
      = iprop(((∃ d, owns (c : Thread nD τ) scr fullShare d) ∗ others (F := F) c) ∗ (∃ r, prngReg c r)) := by
  unfold Pipeline.ΦA others; rw [scopedRest0_eq]; simp only [scr, owns_whole]; try rfl

/-- The call's invariant before position `n`: before the first point the scratch holds anything; afterwards it
    holds `carried`. -/
def PhiS (c : Dev nD) : ℕ → sProp 𝕄
  | 0 => Pipeline.ΦA spec0 c
  | _ + 1 => iprop((owns (c : Thread nD τ) scr fullShare (carried V c) ∗ others (F := F) c) ∗ (∃ r, prngReg c r))

/-- The call's proof data on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay2 (blk0 V c 4 t)
    | ⟨6, _⟩ => k0_pay3 (blk0 V c 4 t) (carried V c) (blk0 V c 2 t) (blk0 V c 3 t)
  Φ t := PhiS V c t.val
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = k0_pay2 (blk0 V c 4 t) := by dsimp only [dat0]
theorem dat0_after6 (c : Dev nD) (t : Fin cfg0.N) :
    (dat0 V c).after 6 t = k0_pay3 (blk0 V c 4 t) (carried V c) (blk0 V c 2 t) (blk0 V c 3 t) := by dsimp only [dat0]
theorem dat0_Phi (c : Dev nD) (t : Fin (cfg0.N + 1)) : (dat0 V c).Φ t = PhiS V c t.val := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d
theorem dat0_before3 (c : Dev nD) (t : Fin cfg0.N) (d) : (dat0 V c).before 3 t d = blk0 V c 3 t :=
  found0_3 V (dat0 V c) (dat0_A V c 3) (dat0_after3 V c) t d
theorem dat0_before4 (c : Dev nD) (t : Fin cfg0.N) (d) : (dat0 V c).before 4 t d = blk0 V c 4 t :=
  found0_4 V (dat0 V c) (dat0_A V c 4) (dat0_after4 V c) t d

/-- What the body is handed at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4]
  rw [show (dat0 V c).owesAt () t.succ = (dat0 V c).owesAt () t.castSucc from rfl,
    dat0_Phi, dat0_Phi, Fin.coe_castSucc, Fin.val_succ,
    dat0_after0, dat0_after1, dat0_after2, dat0_after3, dat0_after4, dat0_after5, dat0_after6]
  by_cases h0 : t.val = 0
  · -- the first point: the scratch at anything, filled by this point
    obtain rfl : t = t0_0 := Fin.ext h0
    rw [show PhiS V c (t0_0 : Fin cfg0.N).val = Pipeline.ΦA spec0 c from rfl, PhiA_split]
    rw [show PhiS V c ((t0_0 : Fin cfg0.N).val + 1) = iprop((owns (c : Thread nD τ) scr fullShare (carried V c) ∗ others (F := F) c) ∗ (∃ r, prngReg c r)) from rfl]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (runFirst c Set.univ _ ((onFirst_iff t0_0).mpr rfl) _ _ _ _ _ _ _ _ _ _ _ _ _ _ _ _ (blk0 V c 0 t0_0) (blk0 V c 1 t0_0) (blk0 V c 2 t0_0) (blk0 V c 3 t0_0) (blk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · -- a later point: the scratch at what the first point left, read and kept
    obtain ⟨n, hn⟩ : ∃ n, t.val = n + 1 := ⟨t.val - 1, by omega⟩
    rw [hn, show PhiS V c (n + 1) = iprop((owns (c : Thread nD τ) scr fullShare (carried V c) ∗ others (F := F) c) ∗ (∃ r, prngReg c r)) from rfl,
      show PhiS V c (n + 1 + 1) = iprop((owns (c : Thread nD τ) scr fullShare (carried V c) ∗ others (F := F) c) ∗ (∃ r, prngReg c r)) from rfl]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (runLater c Set.univ _ (fun h => h0 ((onFirst_iff t).mp h)) _ _ _ _ _ _ _ _ _ _ _ _ _ _ _ _ (blk0 V c 0 t) (blk0 V c 1 t) (blk0 V c 2 t) (blk0 V c 3 t) (blk0 V c 4 t) (carried V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call's body obligation, at every point. -/
theorem obligation0 (c : Dev nD) : BodyObligation (dat0 (F := F) V c) (defs₀ (F := F)) Variants.none () Set.univ := fun t => by
  rw [bigSep_W0, bigSep_W0]
  exact body0 V c t

/-- What the launch hands the call is the invariant before the first point. -/
theorem enter0 (c : Dev nD) : Pipeline.ΦA spec0 c ⊢ (dat0 V c).Φ 0 := by
  rw [dat0_Phi]; exact Idealize.SL.BI.Entails.refl _

/-- After the last point the invariant gives the class invariant back: what the scratch holds is forgotten. -/
theorem leave0 (c : Dev nD) : (dat0 V c).Φ (Fin.last cfg0.N) ⊢ Pipeline.ΦA spec0 c := by
  rw [dat0_Phi, Fin.val_last, show cfg0.N = 7 + 1 from N_0, PhiA_split]
  rw [show PhiS V c (7 + 1) = iprop((owns (c : Thread nD τ) scr fullShare (carried V c) ∗ others (F := F) c) ∗ (∃ r, prngReg c r)) from rfl]
  iintro ⟨⟨HS, Hoth⟩, Hg⟩
  isplitl [HS Hoth]
  · isplitl [HS]; · iexists _; iexact HS
    iexact Hoth
  iexact Hg

end Cert.Kernel.Hand

end
-- ==== Proof.K.Stage2.lean ====
import proofs.«155964_g13073880449845_cont_fleet_838_2_alg».proof.Proof.Gen.Kernel.Launch
import proofs.«155964_g13073880449845_cont_fleet_838_2_alg».proof.Proof.Gen.Kernel.Skeleton
import proofs.«155964_g13073880449845_cont_fleet_838_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The second call: each grid point takes a band of 512 rows of the (rounded) adjacency, the whole first-stage
  matrix, the bias row and the class weights, and writes that band of `relu (A · Y1 + b1) · Wc`.  Stated at a
  parameter `V`: what the core's arrays hold when the call is entered.
-/

variable (V : (c : Dev nD) → (b : Ref sig .tc) → Buf (Elt F) ((c : Thread nD τ).loc b))

/-- The block of window `w` that grid point `t` works on, cut out of the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's staging buffer holds the window's block at every point, whether the point fetched it or the
   block index stood still since the last fetch. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body reads and writes through. -/
abbrev r1_0 : Rect S512x4096 := Rect.unit (s := S512x4096) ![0, 0] S512x4096.size inb_S512x4096_S512x4096_0_0
abbrev r1_1 : Rect S4096x512 := Rect.unit (s := S4096x512) ![0, 0] S4096x512.size inb_S4096x512_S4096x512_0_0
abbrev r1_2 : Rect S1x512 := Rect.unit (s := S1x512) ![0, 0] S1x512.size inb_S1x512_S1x512_0_0
abbrev r1_3 : Rect S512x64 := Rect.unit (s := S512x64) ![0, 0] S512x64.size inb_S512x64_S512x64_0_0
abbrev r1_4 : Rect S512x64 := Rect.unit (s := S512x64) ![0, 0] S512x64.size inb_S512x64_S512x64_0_0

/-- What the body leaves in the output band's buffer: its one store, over the input blocks. -/
def out1 (x0 : Vec F S512x4096 .bf16) (x1 : Vec F S4096x512 .bf16) (x2 : Vec F S1x512 .f32) (x3 : Vec F S512x64 .bf16) : Vec F S512x64 .bf16 :=
  View.canon [⟨r1_4, k1_pay1 (View.ld x0 r1_0) (View.ld x1 r1_1) (View.ld x2 r1_2) (View.ld x3 r1_3)⟩]

/-- That store covers the buffer. -/
theorem cover1 (p0 : Vec F S512x64 .bf16) (y : S512x64.Idx) :
    ∃ pc ∈ ([⟨r1_4, p0⟩] : List (View.Piece (Elt F) S512x64 .bf16)), y ∈ pc.1.set :=
  View.cover_of_tiled [⟨r1_4, p0⟩] S512x64.size (by rfl) y

set_option maxHeartbeats 1000000 in
/-- The body on whole staging buffers: the inputs are read and kept, the output buffer (holding anything) ends at `out1`. -/
theorem run1 (c : Dev nD) (E : Set ℕ) (i : grid1.Coords)
    (arg1 : Memref sig .tc .vmem S512x4096 .bf16) (harg1 : arg1.IsWhole) (arg2 : Memref sig .tc .vmem S4096x512 .bf16) (harg2 : arg2.IsWhole) (arg3 : Memref sig .tc .vmem S1x512 .f32) (harg3 : arg3.IsWhole) (arg4 : Memref sig .tc .vmem S512x64 .bf16) (harg4 : arg4.IsWhole) (arg5 : Memref sig .tc .vmem S512x64 .bf16) (harg5 : arg5.IsWhole)
    (x0 : Vec F S512x4096 .bf16) (x1 : Vec F S4096x512 .bf16) (x2 : Vec F S1x512 .f32) (x3 : Vec F S512x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1 x0 x1 x2 x3)) -∗ K ⟨⟩))
      ⊢ wp frame (wpE (defs₀ (F := F)) Variants.none c none) E (cc1__stage2 i arg1 harg1 arg2 harg2 arg3 harg3 arg4 harg4 arg5 harg5) K := by
  simp only [cc1__stage2_eq_skeleton]; unfold cc1__stage2_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover1 _)

/-- The call's proof data on core `c`: the arrays as found; after the body at point `t` every input buffer still
    at its block and the output's at `out1` of the blocks; between points only the buffers no window stages and the
    generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = out1 (blk1 V c 0 t) (blk1 V c 1 t) (blk1 V c 2 t) (blk1 V c 3 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d

/-- What the body is handed at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (run1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The call's body obligation, at every point. -/
theorem obligation1 (c : Dev nD) : BodyObligation (dat1 (F := F) V c) (defs₀ (F := F)) Variants.none () Set.univ := fun t => by
  rw [bigSep_W1, bigSep_W1]
  exact body1 V c t

end Cert.Kernel.Hand

end
-- ==== Proof.K.Stage3.lean ====
import proofs.«155964_g13073880449845_cont_fleet_838_2_alg».proof.Proof.Gen.Kernel.Launch
import proofs.«155964_g13073880449845_cont_fleet_838_2_alg».proof.Proof.Gen.Kernel.Skeleton
import proofs.«155964_g13073880449845_cont_fleet_838_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The third call: each grid point takes a band of 512 rows of the (rounded) adjacency, the whole second-stage
  matrix and the bias row, and writes that band of `A · Y2 + bc`.  Stated at a parameter `V`: what the core's
  arrays hold when the call is entered.
-/

variable (V : (c : Dev nD) → (b : Ref sig .tc) → Buf (Elt F) ((c : Thread nD τ).loc b))

/-- The block of window `w` that grid point `t` works on, cut out of the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's staging buffer holds the window's block at every point, whether the point fetched it or the
   block index stood still since the last fetch. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body reads and writes through. -/
abbrev r2_0 : Rect S512x4096 := Rect.unit (s := S512x4096) ![0, 0] S512x4096.size inb_S512x4096_S512x4096_0_0
abbrev r2_1 : Rect S4096x64 := Rect.unit (s := S4096x64) ![0, 0] S4096x64.size inb_S4096x64_S4096x64_0_0
abbrev r2_2 : Rect S1x64 := Rect.unit (s := S1x64) ![0, 0] S1x64.size inb_S1x64_S1x64_0_0
abbrev r2_3 : Rect S512x64 := Rect.unit (s := S512x64) ![0, 0] S512x64.size inb_S512x64_S512x64_0_0

/-- What the body leaves in the output band's buffer: its one store, over the input blocks. -/
def out2 (x0 : Vec F S512x4096 .bf16) (x1 : Vec F S4096x64 .bf16) (x2 : Vec F S1x64 .f32) : Vec F S512x64 .f32 :=
  View.canon [⟨r2_3, k2_pay1 (View.ld x0 r2_0) (View.ld x1 r2_1) (View.ld x2 r2_2)⟩]

/-- That store covers the buffer. -/
theorem cover2 (p0 : Vec F S512x64 .f32) (y : S512x64.Idx) :
    ∃ pc ∈ ([⟨r2_3, p0⟩] : List (View.Piece (Elt F) S512x64 .f32)), y ∈ pc.1.set :=
  View.cover_of_tiled [⟨r2_3, p0⟩] S512x64.size (by rfl) y

set_option maxHeartbeats 1000000 in
/-- The body on whole staging buffers: the inputs are read and kept, the output buffer (holding anything) ends at `out2`. -/
theorem run2 (c : Dev nD) (E : Set ℕ) (i : grid2.Coords)
    (arg1 : Memref sig .tc .vmem S512x4096 .bf16) (harg1 : arg1.IsWhole) (arg2 : Memref sig .tc .vmem S4096x64 .bf16) (harg2 : arg2.IsWhole) (arg3 : Memref sig .tc .vmem S1x64 .f32) (harg3 : arg3.IsWhole) (arg4 : Memref sig .tc .vmem S512x64 .f32) (harg4 : arg4.IsWhole)
    (x0 : Vec F S512x4096 .bf16) (x1 : Vec F S4096x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__stage3 i arg1 harg1 arg2 harg2 arg3 harg3 arg4 harg4) K := by
  simp only [cc2__stage3_eq_skeleton]; unfold cc2__stage3_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The call's proof data on core `c`: the arrays as found; after the body at point `t` every input buffer still
    at its block and the output's at `out2` of the blocks; between points only the buffers no window stages and the
    generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = out2 (blk2 V c 0 t) (blk2 V c 1 t) (blk2 V c 2 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d

/-- What the body is handed at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (run2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The call's body obligation, at every point. -/
theorem obligation2 (c : Dev nD) : BodyObligation (dat2 (F := F) V c) (defs₀ (F := F)) Variants.none () Set.univ := fun t => by
  rw [bigSep_W2, bigSep_W2]
  exact body2 V c t

end Cert.Kernel.Hand

end
-- ==== Proof.K.Run.lean ====
import proofs.«155964_g13073880449845_cont_fleet_838_2_alg».proof.Proof.Gen.Kernel.Launch
import proofs.«155964_g13073880449845_cont_fleet_838_2_alg».proof.Proof.Gen.Kernel.Skeleton
import proofs.«155964_g13073880449845_cont_fleet_838_2_alg».proof.Proof.Gen.Kernel.Points
import proofs.«155964_g13073880449845_cont_fleet_838_2_alg».proof.Proof.K.Stage1
import proofs.«155964_g13073880449845_cont_fleet_838_2_alg».proof.Proof.K.Stage2
import proofs.«155964_g13073880449845_cont_fleet_838_2_alg».proof.Proof.K.Stage3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The whole program: seven host operations (four roundings of arguments, three reshapes of bias vectors), then the
  three calls one after the other.  The contents of the core's buffers are followed from the launch through each
  segment; the run ends with every unscoped buffer at the last of these contents.
-/

variable (m : (ℓ : Loc nD τ sig) → Buf (Elt F) ℓ)

/-- Core `c`'s buffers at launch, -/
abbrev W0 : Dev nD → Valuation τ sig (Elt F) := fun c b => m ((c : Dev nD), b)
/-- after the host operations, -/
abbrev W1 : Dev nD → Valuation τ sig (Elt F) := fun c => StableHlo.after hostOps0 (W0 m c)
/-- the same read at the TensorCore's references. -/
abbrev V1 : (c : Dev nD) → (b : Ref sig .tc) → Buf (Elt F) ((c : Thread nD τ).loc b) := fun c b => W1 m c b

/-- After the first call: its arrays at what the call's write-backs leave, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its arrays at what the call's write-backs leave, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem left1 (c : Dev nD) (w : Fin cfg1.W) : (dat1 (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third call: its arrays at what the call's write-backs leave, every other buffer as before. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem left2 (c : Dev nD) (w : Fin cfg2.W) : (dat2 (V3 m) c).arrAt w cfg2.N = V4 m c (Pipeline.arrRef spec2 w) :=
  (W4_arr m c w).symm
theorem kept2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- No call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Call 0 as a segment: entered with every unscoped buffer whole at the contents before it, left with them at the
    contents after it — the call's arrays at what its write-backs leave, the other buffers untouched.  The generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from leave0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer whole at the contents before it, left with them at the
    contents after it — the call's arrays at what its write-backs leave, the other buffers untouched.  The generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer whole at the contents before it, left with them at the
    contents after it — the call's arrays at what its write-backs leave, the other buffers untouched.  The generator
    register goes into the call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (left2 m c) (kept2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN.  From any memory with zero counters, every weakly fair execution of the program terminates without a
    fault, and in every final state every unscoped buffer of every core holds the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

/-- The host operations write only the seven intermediate arrays. -/
theorem hostWrites : (hostOps0 : List (HloOp τ sig (Elt F))).Forall fun op =>
    op.writes ⊆ (([main_v0, main_v1, main_v2, main_v3, main_v4, main_v5, main_v6] : List (Ref sig .tc)).map (Proc.devRef (τ := τ) .tc)).toFinset := by
  simp only [List.Forall]
  refine ⟨?_, ?_, ?_, ?_, ?_, ?_, ?_⟩ <;>
    (simp only [StableHlo.unary_writes, StableHlo.reshape_writes, Finset.singleton_subset_iff, List.mem_toFinset]
     exact List.mem_map_of_mem (by decide))

/-- A buffer the host operations do not write holds after them what it held at launch. -/
theorem W1_of (c : Dev nD) (b : Ref sig .tc) (hb : b ∉ ([main_v0, main_v1, main_v2, main_v3, main_v4, main_v5, main_v6] : List (Ref sig .tc))) :
    W1 m c (Proc.devRef .tc b) = W0 m c (Proc.devRef .tc b) :=
  StableHlo.after_of_writes_sub hostOps0 _ hostWrites hb

/-- An array no call has a window on, and no host operation writes, ends as launched. -/
theorem W4_bypass (c : Dev nD) (b : Ref sig .tc) (h0 : ∀ w, Pipeline.arrRef spec0 w ≠ b) (h1 : ∀ w, Pipeline.arrRef spec1 w ≠ b)
    (h2 : ∀ w, Pipeline.arrRef spec2 w ≠ b)
    (hb : b ∉ ([main_v0, main_v1, main_v2, main_v3, main_v4, main_v5, main_v6] : List (Ref sig .tc))) :
    W4 m c (Proc.devRef .tc b) = m ((c : Thread nD τ).loc b) :=
  (W4_of_ne m c b h2).trans <| (W3_of_ne m c b h1).trans <| (W2_of_ne m c b h0).trans <| (W1_of m c b hb).trans rfl

/-- The adjacency is read by the first call through an input window and touched by nothing else. -/
theorem W2_adj (c : Dev nD) : W2 m c (Proc.devRef .tc main_arg1) = m ((c : Thread nD τ).loc main_arg1) :=
  (W2_arr m c 4).trans <| ((dat0 (V1 m) c).arrAt_in 4 rfl _).trans <| (dat0_A (V1 m) c 4).trans <| (W1_of m c main_arg1 (by decide)).trans rfl
theorem W4_adj (c : Dev nD) : W4 m c (Proc.devRef .tc main_arg1) = m ((c : Thread nD τ).loc main_arg1) :=
  (W4_of_ne m c main_arg1 (by decide)).trans <| (W3_of_ne m c main_arg1 (by decide)).trans (W2_adj m c)

/-- THE FRAME: the program runs to the end without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_bypass m c main_arg0 (by decide) (by decide) (by decide) (by decide)),
     (h c _ (mem_uc main_arg1 (by decide))).trans (W4_adj m c),
     (h c _ (mem_uc main_arg2 (by decide))).trans (W4_bypass m c main_arg2 (by decide) (by decide) (by decide) (by decide)),
     (h c _ (mem_uc main_arg3 (by decide))).trans (W4_bypass m c main_arg3 (by decide) (by decide) (by decide) (by decide)),
     (h c _ (mem_uc main_arg4 (by decide))).trans (W4_bypass m c main_arg4 (by decide) (by decide) (by decide) (by decide)),
     (h c _ (mem_uc main_arg5 (by decide))).trans (W4_bypass m c main_arg5 (by decide) (by decide) (by decide) (by decide)),
     (h c _ (mem_uc main_arg6 (by decide))).trans (W4_bypass m c main_arg6 (by decide) (by decide) (by decide) (by decide)),
     (h c _ (mem_uc main_arg7 (by decide))).trans (W4_bypass m c main_arg7 (by decide) (by decide) (by decide) (by decide))⟩)
    (run_all m ρ)

end Cert.Kernel.Hand

end
-- ==== Proof.KI.Stage1.lean ====
import proofs.«155964_g13073880449845_cont_fleet_838_2_alg».proof.Proof.Gen.KernelIdeal.Launch
import proofs.«155964_g13073880449845_cont_fleet_838_2_alg».proof.Proof.Gen.KernelIdeal.Skeleton
import proofs.«155964_g13073880449845_cont_fleet_838_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The first call.  Each grid point takes a band of 512 rows of the adjacency `A`; the features, the two weight
  matrices and the first bias row are whole blocks that never move.  The FIRST point also computes `X · W0` into a
  scratch buffer that every later point reads: the scratch is carried from point to point, holding the same
  matrix after every point.  Every point writes its band of the rounded adjacency and its band of
  `relu (A · (X · W0) + b0) · W1`.  Stated at a parameter `V`: what the core's arrays hold when the call is entered.
-/

/-- "This is the grid's first point", as the body computes it from the point's coordinate. -/
abbrev onFirst (i : grid0.Coords) : Prop :=
  (Scalar.cmpi .ne (Scalar.extui (Scalar.cmpi .eq (BitVec.ofNat 32 (i 0).val) 0#32)) 0#32) = 1#1

theorem onFirst_iff : ∀ t : Fin cfg0.N, onFirst (grid0.coords t) ↔ t.val = 0 :=
  (by decide +kernel : ∀ t : Fin grid0.N, onFirst (grid0.coords t) ↔ t.val = 0)

/-- The scratch buffer, whole. -/
abbrev scr : Memref sig .tc .vmem S4096x512 .bf16 := Memref.whole cc0_scratch0

/-- The whole-buffer rectangles the body reads and writes through. -/
abbrev r0X : Rect S4096x512 := Rect.unit (s := S4096x512) ![0, 0] S4096x512.size inb_S4096x512_S4096x512_0_0
abbrev r0W : Rect S512x512 := Rect.unit (s := S512x512) ![0, 0] S512x512.size inb_S512x512_S512x512_0_0
abbrev r0B : Rect S1x512 := Rect.unit (s := S1x512) ![0, 0] S1x512.size inb_S1x512_S1x512_0_0
abbrev r0A : Rect S512x4096 := Rect.unit (s := S512x4096) ![0, 0] S512x4096.size inb_S512x4096_S512x4096_0_0

/-- Every one of them starts at the origin. -/
theorem origin2 : (![0, 0] : Fin 2 → Nat) = fun _ => 0 := funext fun a => by
  match a with
  | ⟨0, _⟩ => rfl
  | ⟨1, _⟩ => rfl

/-- One whole-buffer store covers its buffer. -/
theorem coverX (p0 : Vec F S4096x512 .bf16) (y : S4096x512.Idx) :
    ∃ pc ∈ ([⟨r0X, p0⟩] : List (View.Piece (Elt F) S4096x512 .bf16)), y ∈ pc.1.set :=
  View.cover_of_tiled [⟨r0X, p0⟩] S4096x512.size (by rfl) y
theorem coverA (p0 : Vec F S512x4096 .bf16) (y : S512x4096.Idx) :
    ∃ pc ∈ ([⟨r0A, p0⟩] : List (View.Piece (Elt F) S512x4096 .bf16)), y ∈ pc.1.set :=
  View.cover_of_tiled [⟨r0A, p0⟩] S512x4096.size (by rfl) y
theorem coverW (p0 : Vec F S512x512 .bf16) (y : S512x512.Idx) :
    ∃ pc ∈ ([⟨r0W, p0⟩] : List (View.Piece (Elt F) S512x512 .bf16)), y ∈ pc.1.set :=
  View.cover_of_tiled [⟨r0W, p0⟩] S512x512.size (by rfl) y

set_option maxHeartbeats 2000000 in
/-- The body at the first point, on whole staging buffers: the inputs are read and kept; the scratch (holding
    anything) ends at `X · W0`, the two output bands at the rounded adjacency band and at the layer's band. -/
theorem runFirst (c : Dev nD) (E : Set ℕ) (i : grid0.Coords) (hc : onFirst i)
    (arg1 : Memref sig .tc .vmem S4096x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S512x4096 .f32) (harg5 : arg5.IsWhole) (arg6 : Memref sig .tc .vmem S512x4096 .bf16) (harg6 : arg6.IsWhole)
    (arg7 : Memref sig .tc .vmem S512x512 .bf16) (harg7 : arg7.IsWhole) (arg8 : Memref sig .tc .vmem S4096x512 .bf16) (harg8 : arg8.IsWhole)
    (x0 : Vec F S4096x512 .bf16) (x1 : Vec F S512x512 .bf16) (x2 : Vec F S1x512 .f32) (x3 : Vec F S512x512 .bf16) (x4 : Vec F S512x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay2 x4) ∗ owns (c : Thread nD τ) arg7 fullShare (k0_pay3 x4 (k0_pay1 x0 x1) x2 x3)
            ∗ owns (c : Thread nD τ) arg8 fullShare (k0_pay1 x0 x1)) -∗ K ⟨⟩))
      ⊢ wp frame (wpE (defs₀ (F := F)) Variants.none c none) E (cc0__stage1 i arg1 harg1 arg2 harg2 arg3 harg3 arg4 harg4 arg5 harg5 arg6 harg6 arg7 harg7 arg8 harg8) K := by
  simp only [cc0__stage1_eq_skeleton]; unfold cc0__stage1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverA _), View.canon_unit_zero origin2]
    simp only [View.readAt_eq_ld, View.ld_unit_zero (S := S512x4096) origin2]
  isplitl [H6]
  · iexists _; isplitr
    swap; · iexact H6
    ipureintro
    rw [View.read_writes_eq_canon _ _ _ (coverW _), View.canon_unit_zero origin2]
    sl_unfold_run_names
    simp only [View.readAt_eq_ld, View.ld_unit_zero (S := S512x4096) origin2,
      View.ld_unit_zero (S := S4096x512) origin2, View.ld_unit_zero (S := S512x512) origin2, View.ld_unit_zero (S := S1x512) origin2]
    rw [View.readCov_unit_zero (S := S4096x512) arg8.view origin2 inb_S4096x512_S4096x512_0_0]
  iexists _; isplitr
  swap; · iexact H7
  ipureintro
  sl_unfold_run_names
  rw [View.read_writes_eq_canon _ _ _ (coverX _), View.canon_unit_zero origin2]
  simp only [View.readAt_eq_ld, View.ld_unit_zero (S := S4096x512) origin2, View.ld_unit_zero (S := S512x512) origin2]

set_option maxHeartbeats 2000000 in
/-- The body at a later point: the scratch is read and kept at what it holds (`xs`). -/
theorem runLater (c : Dev nD) (E : Set ℕ) (i : grid0.Coords) (hc : ¬onFirst i)
    (arg1 : Memref sig .tc .vmem S4096x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S512x4096 .f32) (harg5 : arg5.IsWhole) (arg6 : Memref sig .tc .vmem S512x4096 .bf16) (harg6 : arg6.IsWhole)
    (arg7 : Memref sig .tc .vmem S512x512 .bf16) (harg7 : arg7.IsWhole) (arg8 : Memref sig .tc .vmem S4096x512 .bf16) (harg8 : arg8.IsWhole)
    (x0 : Vec F S4096x512 .bf16) (x1 : Vec F S512x512 .bf16) (x2 : Vec F S1x512 .f32) (x3 : Vec F S512x512 .bf16) (x4 : Vec F S512x4096 .f32)
    (xs : Vec F S4096x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay2 x4) ∗ owns (c : Thread nD τ) arg7 fullShare (k0_pay3 x4 xs x2 x3)
            ∗ owns (c : Thread nD τ) arg8 fullShare xs) -∗ K ⟨⟩))
      ⊢ wp frame (wpE (defs₀ (F := F)) Variants.none c none) E (cc0__stage1 i arg1 harg1 arg2 harg2 arg3 harg3 arg4 harg4 arg5 harg5 arg6 harg6 arg7 harg7 arg8 harg8) K := by
  simp only [cc0__stage1_eq_skeleton]; unfold cc0__stage1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0; subst hf1; subst hf2; subst hf3; subst hf4; subst hf7
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverA _), View.canon_unit_zero origin2]
    simp only [View.readAt_eq_ld, View.ld_unit_zero (S := S512x4096) origin2]
  isplitl [H6]
  · iexists _; isplitr
    swap; · iexact H6
    ipureintro
    rw [View.read_writes_eq_canon _ _ _ (coverW _), View.canon_unit_zero origin2]
    simp only [View.readAt_eq_ld, View.ld_unit_zero (S := S512x4096) origin2,
      View.ld_unit_zero (S := S4096x512) origin2, View.ld_unit_zero (S := S512x512) origin2, View.ld_unit_zero (S := S1x512) origin2]
  iexists f7; isplitr; · ipureintro; rfl
  iexact H7

variable (V : (c : Dev nD) → (b : Ref sig .tc) → Buf (Elt F) ((c : Thread nD τ).loc b))

/-- The block of window `w` that grid point `t` works on, cut out of the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds the window's block at every point, whether the point fetched it or the
   block index stood still since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- What the scratch holds after every point: the product of the feature block and the first weight block as the
    first point finds them. -/
def carried (c : Dev nD) : Vec F S4096x512 .bf16 := k0_pay1 (blk0 V c 0 t0_0) (blk0 V c 1 t0_0)

/-- The core's scoped buffers other than the scratch that no window of this call stages (the other calls' staging
    buffers), each whole at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))

/-- What the call holds between points when it is entered (the scoped buffers no window stages, at anything, and the generator register), with the scratch split off. -/
theorem PhiA_split (c : Dev nD) :
    (Pipeline.ΦA spec0 c : sProp 𝕄)
      = iprop(((∃ d, owns (c : Thread nD τ) scr fullShare d) ∗ others (F := F) c) ∗ (∃ r, prngReg c r)) := by
  unfold Pipeline.ΦA others; rw [scopedRest0_eq]; simp only [scr, owns_whole]; try rfl

/-- The call's invariant before position `n`: before the first point the scratch holds anything; afterwards it
    holds `carried`. -/
def PhiS (c : Dev nD) : ℕ → sProp 𝕄
  | 0 => Pipeline.ΦA spec0 c
  | _ + 1 => iprop((owns (c : Thread nD τ) scr fullShare (carried V c) ∗ others (F := F) c) ∗ (∃ r, prngReg c r))

/-- The call's proof data on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay2 (blk0 V c 4 t)
    | ⟨6, _⟩ => k0_pay3 (blk0 V c 4 t) (carried V c) (blk0 V c 2 t) (blk0 V c 3 t)
  Φ t := PhiS V c t.val
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = k0_pay2 (blk0 V c 4 t) := by dsimp only [dat0]
theorem dat0_after6 (c : Dev nD) (t : Fin cfg0.N) :
    (dat0 V c).after 6 t = k0_pay3 (blk0 V c 4 t) (carried V c) (blk0 V c 2 t) (blk0 V c 3 t) := by dsimp only [dat0]
theorem dat0_Phi (c : Dev nD) (t : Fin (cfg0.N + 1)) : (dat0 V c).Φ t = PhiS V c t.val := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d
theorem dat0_before3 (c : Dev nD) (t : Fin cfg0.N) (d) : (dat0 V c).before 3 t d = blk0 V c 3 t :=
  found0_3 V (dat0 V c) (dat0_A V c 3) (dat0_after3 V c) t d
theorem dat0_before4 (c : Dev nD) (t : Fin cfg0.N) (d) : (dat0 V c).before 4 t d = blk0 V c 4 t :=
  found0_4 V (dat0 V c) (dat0_A V c 4) (dat0_after4 V c) t d

/-- What the body is handed at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4]
  rw [show (dat0 V c).owesAt () t.succ = (dat0 V c).owesAt () t.castSucc from rfl,
    dat0_Phi, dat0_Phi, Fin.coe_castSucc, Fin.val_succ,
    dat0_after0, dat0_after1, dat0_after2, dat0_after3, dat0_after4, dat0_after5, dat0_after6]
  by_cases h0 : t.val = 0
  · -- the first point: the scratch at anything, filled by this point
    obtain rfl : t = t0_0 := Fin.ext h0
    rw [show PhiS V c (t0_0 : Fin cfg0.N).val = Pipeline.ΦA spec0 c from rfl, PhiA_split]
    rw [show PhiS V c ((t0_0 : Fin cfg0.N).val + 1) = iprop((owns (c : Thread nD τ) scr fullShare (carried V c) ∗ others (F := F) c) ∗ (∃ r, prngReg c r)) from rfl]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (runFirst c Set.univ _ ((onFirst_iff t0_0).mpr rfl) _ _ _ _ _ _ _ _ _ _ _ _ _ _ _ _ (blk0 V c 0 t0_0) (blk0 V c 1 t0_0) (blk0 V c 2 t0_0) (blk0 V c 3 t0_0) (blk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · -- a later point: the scratch at what the first point left, read and kept
    obtain ⟨n, hn⟩ : ∃ n, t.val = n + 1 := ⟨t.val - 1, by omega⟩
    rw [hn, show PhiS V c (n + 1) = iprop((owns (c : Thread nD τ) scr fullShare (carried V c) ∗ others (F := F) c) ∗ (∃ r, prngReg c r)) from rfl,
      show PhiS V c (n + 1 + 1) = iprop((owns (c : Thread nD τ) scr fullShare (carried V c) ∗ others (F := F) c) ∗ (∃ r, prngReg c r)) from rfl]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (runLater c Set.univ _ (fun h => h0 ((onFirst_iff t).mp h)) _ _ _ _ _ _ _ _ _ _ _ _ _ _ _ _ (blk0 V c 0 t) (blk0 V c 1 t) (blk0 V c 2 t) (blk0 V c 3 t) (blk0 V c 4 t) (carried V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The call's body obligation, at every point. -/
theorem obligation0 (c : Dev nD) : BodyObligation (dat0 (F := F) V c) (defs₀ (F := F)) Variants.none () Set.univ := fun t => by
  rw [bigSep_W0, bigSep_W0]
  exact body0 V c t

/-- What the launch hands the call is the invariant before the first point. -/
theorem enter0 (c : Dev nD) : Pipeline.ΦA spec0 c ⊢ (dat0 V c).Φ 0 := by
  rw [dat0_Phi]; exact Idealize.SL.BI.Entails.refl _

/-- After the last point the invariant gives the class invariant back: what the scratch holds is forgotten. -/
theorem leave0 (c : Dev nD) : (dat0 V c).Φ (Fin.last cfg0.N) ⊢ Pipeline.ΦA spec0 c := by
  rw [dat0_Phi, Fin.val_last, show cfg0.N = 7 + 1 from N_0, PhiA_split]
  rw [show PhiS V c (7 + 1) = iprop((owns (c : Thread nD τ) scr fullShare (carried V c) ∗ others (F := F) c) ∗ (∃ r, prngReg c r)) from rfl]
  iintro ⟨⟨HS, Hoth⟩, Hg⟩
  isplitl [HS Hoth]
  · isplitl [HS]; · iexists _; iexact HS
    iexact Hoth
  iexact Hg

end Cert.KernelIdeal.Hand

end
-- ==== Proof.KI.Stage2.lean ====
import proofs.«155964_g13073880449845_cont_fleet_838_2_alg».proof.Proof.Gen.KernelIdeal.Launch
import proofs.«155964_g13073880449845_cont_fleet_838_2_alg».proof.Proof.Gen.KernelIdeal.Skeleton
import proofs.«155964_g13073880449845_cont_fleet_838_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The second call: each grid point takes a band of 512 rows of the (rounded) adjacency, the whole first-stage
  matrix, the bias row and the class weights, and writes that band of `relu (A · Y1 + b1) · Wc`.  Stated at a
  parameter `V`: what the core's arrays hold when the call is entered.
-/

variable (V : (c : Dev nD) → (b : Ref sig .tc) → Buf (Elt F) ((c : Thread nD τ).loc b))

/-- The block of window `w` that grid point `t` works on, cut out of the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's staging buffer holds the window's block at every point, whether the point fetched it or the
   block index stood still since the last fetch. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body reads and writes through. -/
abbrev r1_0 : Rect S512x4096 := Rect.unit (s := S512x4096) ![0, 0] S512x4096.size inb_S512x4096_S512x4096_0_0
abbrev r1_1 : Rect S4096x512 := Rect.unit (s := S4096x512) ![0, 0] S4096x512.size inb_S4096x512_S4096x512_0_0
abbrev r1_2 : Rect S1x512 := Rect.unit (s := S1x512) ![0, 0] S1x512.size inb_S1x512_S1x512_0_0
abbrev r1_3 : Rect S512x64 := Rect.unit (s := S512x64) ![0, 0] S512x64.size inb_S512x64_S512x64_0_0
abbrev r1_4 : Rect S512x64 := Rect.unit (s := S512x64) ![0, 0] S512x64.size inb_S512x64_S512x64_0_0

/-- What the body leaves in the output band's buffer: its one store, over the input blocks. -/
def out1 (x0 : Vec F S512x4096 .bf16) (x1 : Vec F S4096x512 .bf16) (x2 : Vec F S1x512 .f32) (x3 : Vec F S512x64 .bf16) : Vec F S512x64 .bf16 :=
  View.canon [⟨r1_4, k1_pay1 (View.ld x0 r1_0) (View.ld x1 r1_1) (View.ld x2 r1_2) (View.ld x3 r1_3)⟩]

/-- That store covers the buffer. -/
theorem cover1 (p0 : Vec F S512x64 .bf16) (y : S512x64.Idx) :
    ∃ pc ∈ ([⟨r1_4, p0⟩] : List (View.Piece (Elt F) S512x64 .bf16)), y ∈ pc.1.set :=
  View.cover_of_tiled [⟨r1_4, p0⟩] S512x64.size (by rfl) y

set_option maxHeartbeats 1000000 in
/-- The body on whole staging buffers: the inputs are read and kept, the output buffer (holding anything) ends at `out1`. -/
theorem run1 (c : Dev nD) (E : Set ℕ) (i : grid1.Coords)
    (arg1 : Memref sig .tc .vmem S512x4096 .bf16) (harg1 : arg1.IsWhole) (arg2 : Memref sig .tc .vmem S4096x512 .bf16) (harg2 : arg2.IsWhole) (arg3 : Memref sig .tc .vmem S1x512 .f32) (harg3 : arg3.IsWhole) (arg4 : Memref sig .tc .vmem S512x64 .bf16) (harg4 : arg4.IsWhole) (arg5 : Memref sig .tc .vmem S512x64 .bf16) (harg5 : arg5.IsWhole)
    (x0 : Vec F S512x4096 .bf16) (x1 : Vec F S4096x512 .bf16) (x2 : Vec F S1x512 .f32) (x3 : Vec F S512x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1 x0 x1 x2 x3)) -∗ K ⟨⟩))
      ⊢ wp frame (wpE (defs₀ (F := F)) Variants.none c none) E (cc1__stage2 i arg1 harg1 arg2 harg2 arg3 harg3 arg4 harg4 arg5 harg5) K := by
  simp only [cc1__stage2_eq_skeleton]; unfold cc1__stage2_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover1 _)

/-- The call's proof data on core `c`: the arrays as found; after the body at point `t` every input buffer still
    at its block and the output's at `out1` of the blocks; between points only the buffers no window stages and the
    generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = out1 (blk1 V c 0 t) (blk1 V c 1 t) (blk1 V c 2 t) (blk1 V c 3 t) := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d

/-- What the body is handed at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (run1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The call's body obligation, at every point. -/
theorem obligation1 (c : Dev nD) : BodyObligation (dat1 (F := F) V c) (defs₀ (F := F)) Variants.none () Set.univ := fun t => by
  rw [bigSep_W1, bigSep_W1]
  exact body1 V c t

end Cert.KernelIdeal.Hand

end
-- ==== Proof.KI.Stage3.lean ====
import proofs.«155964_g13073880449845_cont_fleet_838_2_alg».proof.Proof.Gen.KernelIdeal.Launch
import proofs.«155964_g13073880449845_cont_fleet_838_2_alg».proof.Proof.Gen.KernelIdeal.Skeleton
import proofs.«155964_g13073880449845_cont_fleet_838_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The third call: each grid point takes a band of 512 rows of the (rounded) adjacency, the whole second-stage
  matrix and the bias row, and writes that band of `A · Y2 + bc`.  Stated at a parameter `V`: what the core's
  arrays hold when the call is entered.
-/

variable (V : (c : Dev nD) → (b : Ref sig .tc) → Buf (Elt F) ((c : Thread nD τ).loc b))

/-- The block of window `w` that grid point `t` works on, cut out of the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input window's staging buffer holds the window's block at every point, whether the point fetched it or the
   block index stood still since the last fetch. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body reads and writes through. -/
abbrev r2_0 : Rect S512x4096 := Rect.unit (s := S512x4096) ![0, 0] S512x4096.size inb_S512x4096_S512x4096_0_0
abbrev r2_1 : Rect S4096x64 := Rect.unit (s := S4096x64) ![0, 0] S4096x64.size inb_S4096x64_S4096x64_0_0
abbrev r2_2 : Rect S1x64 := Rect.unit (s := S1x64) ![0, 0] S1x64.size inb_S1x64_S1x64_0_0
abbrev r2_3 : Rect S512x64 := Rect.unit (s := S512x64) ![0, 0] S512x64.size inb_S512x64_S512x64_0_0

/-- What the body leaves in the output band's buffer: its one store, over the input blocks. -/
def out2 (x0 : Vec F S512x4096 .bf16) (x1 : Vec F S4096x64 .bf16) (x2 : Vec F S1x64 .f32) : Vec F S512x64 .f32 :=
  View.canon [⟨r2_3, k2_pay1 (View.ld x0 r2_0) (View.ld x1 r2_1) (View.ld x2 r2_2)⟩]

/-- That store covers the buffer. -/
theorem cover2 (p0 : Vec F S512x64 .f32) (y : S512x64.Idx) :
    ∃ pc ∈ ([⟨r2_3, p0⟩] : List (View.Piece (Elt F) S512x64 .f32)), y ∈ pc.1.set :=
  View.cover_of_tiled [⟨r2_3, p0⟩] S512x64.size (by rfl) y

set_option maxHeartbeats 1000000 in
/-- The body on whole staging buffers: the inputs are read and kept, the output buffer (holding anything) ends at `out2`. -/
theorem run2 (c : Dev nD) (E : Set ℕ) (i : grid2.Coords)
    (arg1 : Memref sig .tc .vmem S512x4096 .bf16) (harg1 : arg1.IsWhole) (arg2 : Memref sig .tc .vmem S4096x64 .bf16) (harg2 : arg2.IsWhole) (arg3 : Memref sig .tc .vmem S1x64 .f32) (harg3 : arg3.IsWhole) (arg4 : Memref sig .tc .vmem S512x64 .f32) (harg4 : arg4.IsWhole)
    (x0 : Vec F S512x4096 .bf16) (x1 : Vec F S4096x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__stage3 i arg1 harg1 arg2 harg2 arg3 harg3 arg4 harg4) K := by
  simp only [cc2__stage3_eq_skeleton]; unfold cc2__stage3_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2 _)

/-- The call's proof data on core `c`: the arrays as found; after the body at point `t` every input buffer still
    at its block and the output's at `out2` of the blocks; between points only the buffers no window stages and the
    generator register, untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = out2 (blk2 V c 0 t) (blk2 V c 1 t) (blk2 V c 2 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d

/-- What the body is handed at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (run2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The call's body obligation, at every point. -/
theorem obligation2 (c : Dev nD) : BodyObligation (dat2 (F := F) V c) (defs₀ (F := F)) Variants.none () Set.univ := fun t => by
  rw [bigSep_W2, bigSep_W2]
  exact body2 V c t

end Cert.KernelIdeal.Hand

end
-- ==== Proof.KI.Run.lean ====
import proofs.«155964_g13073880449845_cont_fleet_838_2_alg».proof.Proof.Gen.KernelIdeal.Launch
import proofs.«155964_g13073880449845_cont_fleet_838_2_alg».proof.Proof.Gen.KernelIdeal.Skeleton
import proofs.«155964_g13073880449845_cont_fleet_838_2_alg».proof.Proof.Gen.KernelIdeal.Points
import proofs.«155964_g13073880449845_cont_fleet_838_2_alg».proof.Proof.KI.Stage1
import proofs.«155964_g13073880449845_cont_fleet_838_2_alg».proof.Proof.KI.Stage2
import proofs.«155964_g13073880449845_cont_fleet_838_2_alg».proof.Proof.KI.Stage3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  The whole program: seven host operations (four roundings of arguments, three reshapes of bias vectors), then the
  three calls one after the other.  The contents of the core's buffers are followed from the launch through each
  segment; the run ends with every unscoped buffer at the last of these contents.
-/

variable (m : (ℓ : Loc nD τ sig) → Buf (Elt F) ℓ)

/-- Core `c`'s buffers at launch, -/
abbrev W0 : Dev nD → Valuation τ sig (Elt F) := fun c b => m ((c : Dev nD), b)
/-- after the host operations, -/
abbrev W1 : Dev nD → Valuation τ sig (Elt F) := fun c => StableHlo.after hostOps0 (W0 m c)
/-- the same read at the TensorCore's references. -/
abbrev V1 : (c : Dev nD) → (b : Ref sig .tc) → Buf (Elt F) ((c : Thread nD τ).loc b) := fun c b => W1 m c b

/-- After the first call: its arrays at what the call's write-backs leave, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its arrays at what the call's write-backs leave, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem left1 (c : Dev nD) (w : Fin cfg1.W) : (dat1 (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third call: its arrays at what the call's write-backs leave, every other buffer as before. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem left2 (c : Dev nD) (w : Fin cfg2.W) : (dat2 (V3 m) c).arrAt w cfg2.N = V4 m c (Pipeline.arrRef spec2 w) :=
  (W4_arr m c w).symm
theorem kept2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- No call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Call 0 as a segment: entered with every unscoped buffer whole at the contents before it, left with them at the
    contents after it — the call's arrays at what its write-backs leave, the other buffers untouched.  The generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from leave0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer whole at the contents before it, left with them at the
    contents after it — the call's arrays at what its write-backs leave, the other buffers untouched.  The generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer whole at the contents before it, left with them at the
    contents after it — the call's arrays at what its write-backs leave, the other buffers untouched.  The generator
    register goes into the call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (left2 m c) (kept2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN.  From any memory with zero counters, every weakly fair execution of the program terminates without a
    fault, and in every final state every unscoped buffer of every core holds the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

/-- The host operations write only the seven intermediate arrays. -/
theorem hostWrites : (hostOps0 : List (HloOp τ sig (Elt F))).Forall fun op =>
    op.writes ⊆ (([main_v0, main_v1, main_v2, main_v3, main_v4, main_v5, main_v6] : List (Ref sig .tc)).map (Proc.devRef (τ := τ) .tc)).toFinset := by
  simp only [List.Forall]
  refine ⟨?_, ?_, ?_, ?_, ?_, ?_, ?_⟩ <;>
    (simp only [StableHlo.unary_writes, StableHlo.reshape_writes, Finset.singleton_subset_iff, List.mem_toFinset]
     exact List.mem_map_of_mem (by decide))

/-- A buffer the host operations do not write holds after them what it held at launch. -/
theorem W1_of (c : Dev nD) (b : Ref sig .tc) (hb : b ∉ ([main_v0, main_v1, main_v2, main_v3, main_v4, main_v5, main_v6] : List (Ref sig .tc))) :
    W1 m c (Proc.devRef .tc b) = W0 m c (Proc.devRef .tc b) :=
  StableHlo.after_of_writes_sub hostOps0 _ hostWrites hb

/-- An array no call has a window on, and no host operation writes, ends as launched. -/
theorem W4_bypass (c : Dev nD) (b : Ref sig .tc) (h0 : ∀ w, Pipeline.arrRef spec0 w ≠ b) (h1 : ∀ w, Pipeline.arrRef spec1 w ≠ b)
    (h2 : ∀ w, Pipeline.arrRef spec2 w ≠ b)
    (hb : b ∉ ([main_v0, main_v1, main_v2, main_v3, main_v4, main_v5, main_v6] : List (Ref sig .tc))) :
    W4 m c (Proc.devRef .tc b) = m ((c : Thread nD τ).loc b) :=
  (W4_of_ne m c b h2).trans <| (W3_of_ne m c b h1).trans <| (W2_of_ne m c b h0).trans <| (W1_of m c b hb).trans rfl

/-- The adjacency is read by the first call through an input window and touched by nothing else. -/
theorem W2_adj (c : Dev nD) : W2 m c (Proc.devRef .tc main_arg1) = m ((c : Thread nD τ).loc main_arg1) :=
  (W2_arr m c 4).trans <| ((dat0 (V1 m) c).arrAt_in 4 rfl _).trans <| (dat0_A (V1 m) c 4).trans <| (W1_of m c main_arg1 (by decide)).trans rfl
theorem W4_adj (c : Dev nD) : W4 m c (Proc.devRef .tc main_arg1) = m ((c : Thread nD τ).loc main_arg1) :=
  (W4_of_ne m c main_arg1 (by decide)).trans <| (W3_of_ne m c main_arg1 (by decide)).trans (W2_adj m c)

/-- THE FRAME: the program runs to the end without a fault and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_bypass m c main_arg0 (by decide) (by decide) (by decide) (by decide)),
     (h c _ (mem_uc main_arg1 (by decide))).trans (W4_adj m c),
     (h c _ (mem_uc main_arg2 (by decide))).trans (W4_bypass m c main_arg2 (by decide) (by decide) (by decide) (by decide)),
     (h c _ (mem_uc main_arg3 (by decide))).trans (W4_bypass m c main_arg3 (by decide) (by decide) (by decide) (by decide)),
     (h c _ (mem_uc main_arg4 (by decide))).trans (W4_bypass m c main_arg4 (by decide) (by decide) (by decide) (by decide)),
     (h c _ (mem_uc main_arg5 (by decide))).trans (W4_bypass m c main_arg5 (by decide) (by decide) (by decide) (by decide)),
     (h c _ (mem_uc main_arg6 (by decide))).trans (W4_bypass m c main_arg6 (by decide) (by decide) (by decide) (by decide)),
     (h c _ (mem_uc main_arg7 (by decide))).trans (W4_bypass m c main_arg7 (by decide) (by decide) (by decide) (by decide))⟩)
    (run_all m ρ)

end Cert.KernelIdeal.Hand

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KPay.lean ====
/-
  The arithmetic of the three stages of a graph-convolution kernel, each read at one entry of the block it stores, in
  exact arithmetic (the extended reals, where a format change is the identity).

  Every matrix product here has the plain dimension numbers (rows by `K` times `K` by columns) and accumulates into the
  zero matrix, so at the entry `(p, c)` it is `∑ a, l (p, a) * r (a, c)`. A `[1, n]` row broadcast over the rows of an
  `[a, n]` array reads the row at the column; a cast of a shape to itself is the identity; the maximum with the zero
  splat is `max · 0`.
-/
import proofs.«155964_g13073880449845_cont_fleet_838_2_alg».proof.Proof.Gen.KernelIdeal.Skeleton
import proofs.«155964_g13073880449845_cont_fleet_838_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.GCN.Pay

open Idealize.ShloMosaic Idealize.ShloMosaic.ValueIdx Cert.KernelIdeal Cert.KernelIdeal.Gen

/-! The plain dimension numbers of the `4096x512` by `512x512` product. -/

theorem d0_l0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl
theorem d0_l1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem d0_r0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem d0_r1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl
theorem d0_rank : dot_S4096x512_S512x512_S4096x512_1_0_0_1_n_n.contr.rank = 1 := rfl
theorem d0_size : dot_S4096x512_S512x512_S4096x512_1_0_0_1_n_n.contr.size ⟨0, by decide⟩ = 512 := rfl

/-! The plain dimension numbers of the `512x4096` by `4096x512` product. -/

theorem d1_l0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl
theorem d1_l1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem d1_r0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem d1_r1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl
theorem d1_rank : dot_S512x4096_S4096x512_S512x512_1_0_0_1_n_n.contr.rank = 1 := rfl
theorem d1_size : dot_S512x4096_S4096x512_S512x512_1_0_0_1_n_n.contr.size ⟨0, by decide⟩ = 4096 := rfl

/-! The plain dimension numbers of the `512x512` by `512x512` product. -/

theorem d2_l0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem d2_l1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem d2_r0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem d2_r1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
theorem d2_rank : dot_S512x512_S512x512_S512x512_1_0_0_1_n_n.contr.rank = 1 := rfl
theorem d2_size : dot_S512x512_S512x512_S512x512_1_0_0_1_n_n.contr.size ⟨0, by decide⟩ = 512 := rfl

/-! The plain dimension numbers of the `512x512` by `512x64` product. -/

theorem d3_l0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem d3_l1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem d3_r0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem d3_r1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl
theorem d3_rank : dot_S512x512_S512x64_S512x64_1_0_0_1_n_n.contr.rank = 1 := rfl
theorem d3_size : dot_S512x512_S512x64_S512x64_1_0_0_1_n_n.contr.size ⟨0, by decide⟩ = 512 := rfl

/-! The plain dimension numbers of the `512x4096` by `4096x64` product. -/

theorem d4_l0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem d4_l1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem d4_r0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem d4_r1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl
theorem d4_rank : dot_S512x4096_S4096x64_S512x64_1_0_0_1_n_n.contr.rank = 1 := rfl
theorem d4_size : dot_S512x4096_S4096x64_S512x64_1_0_0_1_n_n.contr.size ⟨0, by decide⟩ = 4096 := rfl

/-- Stage 1's first store: the feature block times the first weight matrix. -/
theorem pay1_apply (v20 : Vec Ideal S4096x512 .bf16) (v22 : Vec Ideal S512x512 .bf16) (p : Fin 4096) (q : Fin 512) :
    k0_pay1 (F := Ideal) v20 v22 (ix2 p q) = ∑ j : Fin 512, v20 (ix2 p j) * v22 (ix2 j q) := by
  unfold k0_pay1
  rw [shapeCast_self, shapeCast_self, shapeCast_self]
  exact Cert.LibPlainDot.matmul_zero_plain (φ₁ := .bf16) (φ₂ := .bf16) dot_S4096x512_S512x512_S4096x512_1_0_0_1_n_n
    d0_rank d0_size d0_l0 d0_l1 d0_r0 d0_r1 none v20 v22 p q

/-- Stage 1's second store: the adjacency block with its format changed, which in exact arithmetic is the block. -/
theorem pay2_apply (v3 : Vec Ideal S512x4096 .f32) (p : Fin 512) (q : Fin 4096) :
    k0_pay2 (F := Ideal) v3 (ix2 p q) = v3 (ix2 p q) := rfl

/-- Stage 1's third store: the first layer (adjacency block times the stored product, plus the bias row, clamped at
    zero) times the second weight matrix. -/
theorem pay3_apply (v3 : Vec Ideal S512x4096 .f32) (v6 : Vec Ideal S4096x512 .bf16) (v8 : Vec Ideal S1x512 .f32)
    (v15 : Vec Ideal S512x512 .bf16) (p q : Fin 512) :
    k0_pay3 (F := Ideal) v3 v6 v8 v15 (ix2 p q)
      = ∑ h : Fin 512, max ((∑ j : Fin 4096, v3 (ix2 p j) * v6 (ix2 j h)) + v8 (ix2 (0 : Fin 1) h)) 0 * v15 (ix2 h q) := by
  unfold k0_pay3
  rw [shapeCast_self, shapeCast_self]
  refine (Cert.LibPlainDot.matmul_zero_plain (φ₁ := .bf16) (φ₂ := .bf16) dot_S512x512_S512x512_S512x512_1_0_0_1_n_n
    d2_rank d2_size d2_l0 d2_l1 d2_r0 d2_r1 none _ v15 p q).trans ?_
  refine Finset.sum_congr rfl fun h _ => ?_
  refine congrArg (· * v15 (ix2 h q)) ?_
  show max (FloatOps.matmul dot_S512x4096_S4096x512_S512x512_1_0_0_1_n_n none (k0_pay2 v3) v6
        (constant S512x512 .f32 0x00000000#32) (ix2 p h)
      + broadcastTo S512x512 v8 broadcasts_S1x512_S512x512 (ix2 p h)) (Ideal.ofBits .f32 0x00000000#32) = _
  rw [broadcastTo_1b_ab_apply, Ideal.ofBits_zero_f32,
    Cert.LibPlainDot.matmul_zero_plain (φ₁ := .bf16) (φ₂ := .bf16) dot_S512x4096_S4096x512_S512x512_1_0_0_1_n_n
      d1_rank d1_size d1_l0 d1_l1 d1_r0 d1_r1 none (k0_pay2 v3) v6 p h]
  rfl

/-- Stage 2's store: the first layer again (from the stored adjacency block and product) times the third weight
    matrix. -/
theorem k1pay1_apply (v0 : Vec Ideal S512x4096 .bf16) (v2 : Vec Ideal S4096x512 .bf16) (v5 : Vec Ideal S1x512 .f32)
    (v12 : Vec Ideal S512x64 .bf16) (p : Fin 512) (q : Fin 64) :
    k1_pay1 (F := Ideal) v0 v2 v5 v12 (ix2 p q)
      = ∑ h : Fin 512, max ((∑ j : Fin 4096, v0 (ix2 p j) * v2 (ix2 j h)) + v5 (ix2 (0 : Fin 1) h)) 0 * v12 (ix2 h q) := by
  unfold k1_pay1
  rw [shapeCast_self, shapeCast_self, shapeCast_self, shapeCast_self]
  refine (Cert.LibPlainDot.matmul_zero_plain (φ₁ := .bf16) (φ₂ := .bf16) dot_S512x512_S512x64_S512x64_1_0_0_1_n_n
    d3_rank d3_size d3_l0 d3_l1 d3_r0 d3_r1 none _ v12 p q).trans ?_
  refine Finset.sum_congr rfl fun h _ => ?_
  refine congrArg (· * v12 (ix2 h q)) ?_
  show max (FloatOps.matmul (F := Ideal) (φ₁ := .bf16) (φ₂ := .bf16) dot_S512x4096_S4096x512_S512x512_1_0_0_1_n_n none v0 v2
        (constant S512x512 .f32 0x00000000#32) (ix2 p h)
      + broadcastTo S512x512 v5 broadcasts_S1x512_S512x512 (ix2 p h)) (Ideal.ofBits .f32 0x00000000#32) = _
  rw [broadcastTo_1b_ab_apply, Ideal.ofBits_zero_f32,
    Cert.LibPlainDot.matmul_zero_plain (φ₁ := .bf16) (φ₂ := .bf16) dot_S512x4096_S4096x512_S512x512_1_0_0_1_n_n
      d1_rank d1_size d1_l0 d1_l1 d1_r0 d1_r1 none v0 v2 p h]

/-- Stage 3's store: the adjacency block times the second layer's product, plus the bias row. -/
theorem k2pay1_apply (v0 : Vec Ideal S512x4096 .bf16) (v2 : Vec Ideal S4096x64 .bf16) (v5 : Vec Ideal S1x64 .f32)
    (p : Fin 512) (q : Fin 64) :
    k2_pay1 (F := Ideal) v0 v2 v5 (ix2 p q) = (∑ j : Fin 4096, v0 (ix2 p j) * v2 (ix2 j q)) + v5 (ix2 (0 : Fin 1) q) := by
  unfold k2_pay1
  rw [shapeCast_self, shapeCast_self, shapeCast_self]
  show FloatOps.matmul (F := Ideal) (φ₁ := .bf16) (φ₂ := .bf16) dot_S512x4096_S4096x64_S512x64_1_0_0_1_n_n none v0 v2
        (constant S512x64 .f32 0x00000000#32) (ix2 p q)
      + broadcastTo S512x64 v5 broadcasts_S1x64_S512x64 (ix2 p q) = _
  rw [broadcastTo_1b_ab_apply,
    Cert.LibPlainDot.matmul_zero_plain (φ₁ := .bf16) (φ₂ := .bf16) dot_S512x4096_S4096x64_S512x64_1_0_0_1_n_n
      d4_rank d4_size d4_l0 d4_l1 d4_r0 d4_r1 none v0 v2 p q]

end Cert.GCN.Pay

end
-- ==== Proof.Value1.lean ====
/-
  What the first call leaves in its two output arrays, entry by entry, in exact arithmetic.

  The call's grid has eight points. Point `t` takes rows `512 t … 512 t + 511` of the adjacency array, and writes the same
  rows of both outputs; the features, the two weight matrices and the bias row are whole blocks at every point. So the
  rounded adjacency ends holding the adjacency entry by entry, and the second output ends holding, at `(p, q)`,
  `∑ h, max (∑ j, A (p, j) * (∑ d, X (j, d) * W₀ (d, h)) + b₀ h) 0 * W₁ (h, q)`: row `p` lies in the block of the one
  point `p / 512`, and what that point writes back is the body's arithmetic of its blocks.
-/
import proofs.«155964_g13073880449845_cont_fleet_838_2_alg».proof.Proof.KI.Stage1
import proofs.«155964_g13073880449845_cont_fleet_838_2_alg».proof.Proof.KPay
import Idealize.ShloMosaic.Lib.Pipeline.Value
import Idealize.ShloMosaic.Lib.ValueIdx

noncomputable section

open scoped BigOperators

namespace Cert.GCN.KV1

open Cert.KernelIdeal Cert.KernelIdeal.Gen Cert.KernelIdeal.Hand
open Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b))

/-- A grid point is below eight. -/
theorem point_lt (t : Fin cfg0.N) : t.val < 8 := lt_of_lt_of_eq t.isLt N_0

/-- The block index maps over the grid: the four whole-block inputs stay at block `(0, 0)`; the adjacency and the two
    outputs move down one band of 512 rows per point. -/
theorem band_index1 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The closed form of the second output -/

/-- `relu (A · (X · W₀) + b) · W₁`, with the row `b` added to every row: the whole second output as one function of the
    five arrays. -/
def layer1 (A : S4096x4096.Idx → EReal) (X : S4096x512.Idx → EReal) (W0 : S512x512.Idx → EReal)
    (b : S1x512.Idx → EReal) (W1 : S512x512.Idx → EReal) : S4096x512.Idx → EReal :=
  fun i => ∑ h : Fin 512,
    max ((∑ j : Fin 4096, A (ix2 (i 0) j) * (∑ d : Fin 512, X (ix2 j d) * W0 (ix2 d h))) + b (ix2 (0 : Fin 1) h)) 0
      * W1 (ix2 h (i 1))

theorem layer1_apply (A : S4096x4096.Idx → EReal) (X : S4096x512.Idx → EReal) (W0 : S512x512.Idx → EReal)
    (b : S1x512.Idx → EReal) (W1 : S512x512.Idx → EReal) (p : Fin 4096) (q : Fin 512) :
    layer1 A X W0 b W1 (ix2 p q)
      = ∑ h : Fin 512,
          max ((∑ j : Fin 4096, A (ix2 p j) * (∑ d : Fin 512, X (ix2 j d) * W0 (ix2 d h))) + b (ix2 (0 : Fin 1) h)) 0
            * W1 (ix2 h q) := rfl

/-! ## The input blocks, read at an entry -/

/-- The feature block at any point is the whole feature array. -/
theorem feat_block1 (c : Dev nD) (t : Fin cfg0.N) (j : Fin 4096) (d : Fin 512) :
    (blk0 V c 0 t : Vec Ideal S4096x512 .bf16) (ix2 j d) = (V c main_v0 : S4096x512.Idx → EReal) (ix2 j d) := by
  obtain ⟨e0, e1, -⟩ := band_index1 t
  show V c main_v0 (((cfg0.win 0).blk t).view.emb (ix2 j d)) = V c main_v0 (ix2 j d)
  refine congrArg (V c main_v0) (funext fun a => Fin.ext ?_)
  match a with
  | ⟨0, _⟩ => show win0_0.index t (0 : Fin 2) * 4096 + 1 * j.val = j.val; rw [e0]; omega
  | ⟨1, _⟩ => show win0_0.index t (1 : Fin 2) * 512 + 1 * d.val = d.val; rw [e1]; omega

/-- The first weight block at any point is the whole first weight matrix. -/
theorem w0_block1 (c : Dev nD) (t : Fin cfg0.N) (d h : Fin 512) :
    (blk0 V c 1 t : Vec Ideal S512x512 .bf16) (ix2 d h) = (V c main_v1 : S512x512.Idx → EReal) (ix2 d h) := by
  obtain ⟨-, -, e0, e1, -⟩ := band_index1 t
  show V c main_v1 (((cfg0.win 1).blk t).view.emb (ix2 d h)) = V c main_v1 (ix2 d h)
  refine congrArg (V c main_v1) (funext fun a => Fin.ext ?_)
  match a with
  | ⟨0, _⟩ => show win0_1.index t (0 : Fin 2) * 512 + 1 * d.val = d.val; rw [e0]; omega
  | ⟨1, _⟩ => show win0_1.index t (1 : Fin 2) * 512 + 1 * h.val = h.val; rw [e1]; omega

/-- The bias block at any point is the whole bias row. -/
theorem bias_block1 (c : Dev nD) (t : Fin cfg0.N) (u : Fin 1) (h : Fin 512) :
    (blk0 V c 2 t : Vec Ideal S1x512 .f32) (ix2 u h) = (V c main_v4 : S1x512.Idx → EReal) (ix2 u h) := by
  obtain ⟨-, -, -, -, e0, e1, -⟩ := band_index1 t
  show V c main_v4 (((cfg0.win 2).blk t).view.emb (ix2 u h)) = V c main_v4 (ix2 u h)
  refine congrArg (V c main_v4) (funext fun a => Fin.ext ?_)
  match a with
  | ⟨0, _⟩ => show win0_2.index t (0 : Fin 2) * 1 + 1 * u.val = u.val; rw [e0]; omega
  | ⟨1, _⟩ => show win0_2.index t (1 : Fin 2) * 512 + 1 * h.val = h.val; rw [e1]; omega

/-- The second weight block at any point is the whole second weight matrix. -/
theorem w1_block1 (c : Dev nD) (t : Fin cfg0.N) (h q : Fin 512) :
    (blk0 V c 3 t : Vec Ideal S512x512 .bf16) (ix2 h q) = (V c main_v2 : S512x512.Idx → EReal) (ix2 h q) := by
  obtain ⟨-, -, -, -, -, -, e0, e1, -⟩ := band_index1 t
  show V c main_v2 (((cfg0.win 3).blk t).view.emb (ix2 h q)) = V c main_v2 (ix2 h q)
  refine congrArg (V c main_v2) (funext fun a => Fin.ext ?_)
  match a with
  | ⟨0, _⟩ => show win0_3.index t (0 : Fin 2) * 512 + 1 * h.val = h.val; rw [e0]; omega
  | ⟨1, _⟩ => show win0_3.index t (1 : Fin 2) * 512 + 1 * q.val = q.val; rw [e1]; omega

/-- Row `r` of the adjacency's block at point `t` is row `512 t + r` of the adjacency. -/
theorem adj_block1 (c : Dev nD) (t : Fin cfg0.N) (r : Fin 512) (j : Fin 4096) (p : Fin 4096)
    (hp : p.val = 512 * t.val + r.val) :
    (blk0 V c 4 t : Vec Ideal S512x4096 .f32) (ix2 r j) = (V c main_arg1 : S4096x4096.Idx → EReal) (ix2 p j) := by
  obtain ⟨-, -, -, -, -, -, -, -, e0, e1, -⟩ := band_index1 t
  show V c main_arg1 (((cfg0.win 4).blk t).view.emb (ix2 r j)) = V c main_arg1 (ix2 p j)
  refine congrArg (V c main_arg1) (funext fun a => Fin.ext ?_)
  match a with
  | ⟨0, _⟩ => show win0_4.index t (0 : Fin 2) * 512 + 1 * r.val = p.val; rw [e0, hp]; omega
  | ⟨1, _⟩ => show win0_4.index t (1 : Fin 2) * 4096 + 1 * j.val = j.val; rw [e1]; omega

/-- The carried scratch holds `X · W₀`: the first point's product of the feature block and the first weight block, which
    are the whole arrays. -/
theorem carried_apply (c : Dev nD) (j : Fin 4096) (h : Fin 512)
    (X : S4096x512.Idx → EReal) (W0 : S512x512.Idx → EReal) (hX : X = V c main_v0) (hW : W0 = V c main_v1) :
    (carried V c : Vec Ideal S4096x512 .bf16) (ix2 j h) = ∑ d : Fin 512, X (ix2 j d) * W0 (ix2 d h) := by
  subst hX hW
  unfold carried
  refine (Cert.GCN.Pay.pay1_apply (blk0 V c 0 t0_0) (blk0 V c 1 t0_0) j h).trans ?_
  refine Finset.sum_congr rfl fun d _ => ?_
  rw [feat_block1 V c t0_0 j d, w0_block1 V c t0_0 d h]

/-! ## What a point writes back -/

/-- Where an entry of point `t`'s band of the first output sits in the array: 512 rows down per point. -/
theorem band_emb5 (t : Fin cfg0.N) (r : Fin 512) (j : Fin 4096) (p : Fin 4096) (hp : p.val = 512 * t.val + r.val) :
    ((cfg0.win 5).blk t).view.emb (ix2 r j) = (ix2 p j : S4096x4096.Idx) := by
  obtain ⟨-, -, -, -, -, -, -, -, -, -, e0, e1, -⟩ := band_index1 t
  refine funext fun a => Fin.ext ?_
  match a with
  | ⟨0, _⟩ => show win0_5.index t (0 : Fin 2) * 512 + 1 * r.val = p.val; rw [e0, hp]; omega
  | ⟨1, _⟩ => show win0_5.index t (1 : Fin 2) * 4096 + 1 * j.val = j.val; rw [e1]; omega

/-- The same for the second output. -/
theorem band_emb6 (t : Fin cfg0.N) (r : Fin 512) (q : Fin 512) (p : Fin 4096) (hp : p.val = 512 * t.val + r.val) :
    ((cfg0.win 6).blk t).view.emb (ix2 r q) = (ix2 p q : S4096x512.Idx) := by
  obtain ⟨-, -, -, -, -, -, -, -, -, -, -, -, e0, e1⟩ := band_index1 t
  refine funext fun a => Fin.ext ?_
  match a with
  | ⟨0, _⟩ => show win0_6.index t (0 : Fin 2) * 512 + 1 * r.val = p.val; rw [e0, hp]; omega
  | ⟨1, _⟩ => show win0_6.index t (1 : Fin 2) * 512 + 1 * q.val = q.val; rw [e1]; omega

/-- Point `t` writes back, into the first output, band `t` of the adjacency. -/
theorem band_written5 (c : Dev nD) (t : Fin cfg0.N) :
    (dat0 (F := Ideal) V c).flushed 5 t = ((cfg0.win 5).blk t).view.read (Elt Ideal) (V c main_arg1) := by
  show (cfg0.win 5).cut (grid0.coords t) ((dat0 V c).after 5 t) = _
  rw [dat0_after5]
  funext y
  obtain ⟨r, j, rfl⟩ : ∃ (r : Fin 512) (j : Fin 4096), y = ix2 r j := ⟨y 0, y 1, eq_ix2 y⟩
  have ht := point_lt t
  show (blk0 V c 4 t : Vec Ideal S512x4096 .f32) (ix2 r j) = V c main_arg1 (((cfg0.win 5).blk t).view.emb (ix2 r j))
  rw [band_emb5 t r j ⟨512 * t.val + r.val, by omega⟩ rfl]
  exact adj_block1 V c t r j ⟨512 * t.val + r.val, by omega⟩ rfl

/-- Point `t` writes back, into the second output, band `t` of `layer1` of the five arrays as the call finds them. -/
theorem band_written6 (c : Dev nD) (t : Fin cfg0.N) :
    (dat0 (F := Ideal) V c).flushed 6 t
      = ((cfg0.win 6).blk t).view.read (Elt Ideal)
          (layer1 (V c main_arg1) (V c main_v0) (V c main_v1) (V c main_v4) (V c main_v2)) := by
  show (cfg0.win 6).cut (grid0.coords t) ((dat0 V c).after 6 t) = _
  rw [dat0_after6]
  funext y
  obtain ⟨r, q, rfl⟩ : ∃ (r : Fin 512) (q : Fin 512), y = ix2 r q := ⟨y 0, y 1, eq_ix2 y⟩
  have ht := point_lt t
  show k0_pay3 (F := Ideal) (blk0 V c 4 t) (carried V c) (blk0 V c 2 t) (blk0 V c 3 t) (ix2 r q)
      = layer1 (V c main_arg1) (V c main_v0) (V c main_v1) (V c main_v4) (V c main_v2)
          (((cfg0.win 6).blk t).view.emb (ix2 r q))
  refine (Cert.GCN.Pay.pay3_apply (blk0 V c 4 t) (carried V c) (blk0 V c 2 t) (blk0 V c 3 t) r q).trans ?_
  rw [band_emb6 t r q ⟨512 * t.val + r.val, by omega⟩ rfl, layer1_apply]
  refine Finset.sum_congr rfl fun h _ => ?_
  rw [bias_block1, w1_block1]
  refine congrArg (fun s => max (s + _) 0 * _) (Finset.sum_congr rfl fun j _ => ?_)
  rw [adj_block1 V c t r j ⟨512 * t.val + r.val, by omega⟩ rfl, carried_apply V c j h _ _ rfl rfl]

/-! ## The cover, and the arrays after the call -/

/-- An index of the first output is in point `t`'s band iff each coordinate is in the band's range on its axis. -/
theorem mem_band5 (t : Fin cfg0.N) (i : S4096x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v7_0).slice (win0_5.rect t)).set ↔ _
  rw [View.set_slice_whole, Rect.mem_set_unit]
  exact Iff.rfl

/-- The same for the second output. -/
theorem mem_band6 (t : Fin cfg0.N) (i : S4096x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v7_1).slice (win0_6.rect t)).set ↔ _
  rw [View.set_slice_whole, Rect.mem_set_unit]
  exact Iff.rfl

/-- Every entry of the first output lies in the band of the point `row / 512`, which writes back. -/
theorem bands_cover5 (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : grid0.N = 8 := N_0
  let t : Fin cfg0.N := ⟨(i 0).val / 512, by show (i 0).val / 512 < grid0.N; rw [hN]; omega⟩
  obtain ⟨-, -, -, -, -, -, -, -, -, -, e0, e1, -⟩ := band_index1 t
  refine ⟨t, flush0_5 t, ?_⟩
  rw [mem_band5]
  intro a
  match a with
  | ⟨0, _⟩ =>
    show win0_5.index t (0 : Fin 2) * 512 ≤ (i 0).val ∧ (i 0).val < win0_5.index t (0 : Fin 2) * 512 + 512
    rw [e0]; show (i 0).val / 512 * 512 ≤ (i 0).val ∧ (i 0).val < (i 0).val / 512 * 512 + 512; omega
  | ⟨1, _⟩ =>
    show win0_5.index t (1 : Fin 2) * 4096 ≤ (i 1).val ∧ (i 1).val < win0_5.index t (1 : Fin 2) * 4096 + 4096
    rw [e1]; omega

/-- The same for the second output. -/
theorem bands_cover6 (i : S4096x512.Idx) :
    ∃ t : Fin cfg0.N, (cfg0.win 6).flush t = true ∧ i ∈ ((cfg0.win 6).blk t).view.set := by
  have hi0 : (i 0).val < 4096 := (i 0).isLt
  have hi1 : (i 1).val < 512 := (i 1).isLt
  have hN : grid0.N = 8 := N_0
  let t : Fin cfg0.N := ⟨(i 0).val / 512, by show (i 0).val / 512 < grid0.N; rw [hN]; omega⟩
  obtain ⟨-, -, -, -, -, -, -, -, -, -, -, -, e0, e1⟩ := band_index1 t
  refine ⟨t, flush0_6 t, ?_⟩
  rw [mem_band6]
  intro a
  match a with
  | ⟨0, _⟩ =>
    show win0_6.index t (0 : Fin 2) * 512 ≤ (i 0).val ∧ (i 0).val < win0_6.index t (0 : Fin 2) * 512 + 512
    rw [e0]; show (i 0).val / 512 * 512 ≤ (i 0).val ∧ (i 0).val < (i 0).val / 512 * 512 + 512; omega
  | ⟨1, _⟩ =>
    show win0_6.index t (1 : Fin 2) * 512 ≤ (i 1).val ∧ (i 1).val < win0_6.index t (1 : Fin 2) * 512 + 512
    rw [e1]; omega

/-- The first output after the call is the adjacency as the call finds it. -/
theorem final1_adj_arr (c : Dev nD) :
    (dat0 (F := Ideal) V c).arrAt 5 cfg0.N = (V c main_arg1 : S4096x4096.Idx → EReal) :=
  (dat0 (F := Ideal) V c).arrAt_eq_of_cover 5 (V c main_arg1) (fun t _ => band_written5 V c t) bands_cover5

/-- The same at an entry. -/
theorem final1_adj (c : Dev nD) (p : Fin 4096) (j : Fin 4096) :
    (dat0 (F := Ideal) V c).arrAt 5 cfg0.N (ix2 p j) = (V c main_arg1 : S4096x4096.Idx → EReal) (ix2 p j) := by
  rw [final1_adj_arr V c]

/-- The second output after the call is `layer1` of the five arrays as the call finds them. -/
theorem final1_y1_arr (c : Dev nD) :
    (dat0 (F := Ideal) V c).arrAt 6 cfg0.N
      = layer1 (V c main_arg1) (V c main_v0) (V c main_v1) (V c main_v4) (V c main_v2) :=
  (dat0 (F := Ideal) V c).arrAt_eq_of_cover 6
    (layer1 (V c main_arg1) (V c main_v0) (V c main_v1) (V c main_v4) (V c main_v2))
    (fun t _ => band_written6 V c t) bands_cover6

/-- The same at an entry, the five arrays named by `hA`, `hX`, `hW0`, `hb`, `hW1`. -/
theorem final1_y1 (c : Dev nD) (p : Fin 4096) (q : Fin 512)
    (A : S4096x4096.Idx → EReal) (X : S4096x512.Idx → EReal) (W0 : S512x512.Idx → EReal)
    (b : S1x512.Idx → EReal) (W1 : S512x512.Idx → EReal)
    (hA : A = V c main_arg1) (hX : X = V c main_v0) (hW0 : W0 = V c main_v1) (hb : b = V c main_v4)
    (hW1 : W1 = V c main_v2) :
    (dat0 (F := Ideal) V c).arrAt 6 cfg0.N (ix2 p q)
      = ∑ h : Fin 512,
          max ((∑ j : Fin 4096, A (ix2 p j) * (∑ d : Fin 512, X (ix2 j d) * W0 (ix2 d h))) + b (ix2 (0 : Fin 1) h)) 0
            * W1 (ix2 h q) := by
  subst hA hX hW0 hb hW1
  rw [final1_y1_arr V c]
  rfl

end Cert.GCN.KV1

end
-- ==== Proof.Value2.lean ====
import proofs.«155964_g13073880449845_cont_fleet_838_2_alg».proof.Proof.KI.Stage2
import Idealize.ShloMosaic.Lib.Pipeline.Value
import Idealize.ShloMosaic.Lib.ValueIdx

/-
  The output array of the second call, entry by entry, in exact arithmetic.

  The call runs over 8 grid points. Point `t` reads rows `512 t … 512 t + 511` of the `4096 × 4096` adjacency `A`,
  the whole `4096 × 512` matrix `Y`, the whole `1 × 512` bias row `b` and the whole `512 × 64` weight matrix `W`, and
  writes rows `512 t … 512 t + 511` of the `4096 × 64` output. Given what the body computes on its blocks at an entry
  `(r, q)` — the sum over `h` of `max (∑ j, A-block (r, j) · Y (j, h) + b (0, h)) 0 · W (h, q)` — the band point `t`
  writes is the same band of ONE whole-array function,

      out (p, q) = ∑ h, max (∑ j, A (p, j) · Y (j, h) + b (0, h)) 0 · W (h, q),

  because row `r` of block `t` of `A` is row `512 t + r` of `A`. The eight bands cover the output (row `p` lies in band
  `p / 512`), so the array ends holding that function. The body's arithmetic enters as the hypothesis `hpay`.
-/

noncomputable section

open scoped BigOperators

namespace Cert.GCN.KV

open Cert.KernelIdeal Cert.KernelIdeal.Gen Cert.KernelIdeal.Hand Idealize.ShloMosaic Idealize.ShloMosaic.ValueIdx
  Idealize.ShloMosaic.Pipeline Idealize.ShloMosaic.TcCoe

variable (V : (c : Dev nD) → (b : Ref sig .tc) → Buf (Elt Ideal) ((c : Thread nD τ).loc b))

/-- The zero offsets of a whole-buffer rectangle. -/
theorem zero_off2 : (![0, 0] : Fin 2 → Nat) = fun _ => 0 := funext fun a => by fin_cases a <;> rfl

/-- The block indices of the five windows at every grid point: the adjacency and the output move down one band per
    point; the other three windows stay at their whole array. -/
theorem band_index2 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- `relu (A · Y + b) · W`, the row `b` added to every row: the whole output as one function of the four arrays. -/
def propReluMul (A : S4096x4096.Idx → EReal) (Y : S4096x512.Idx → EReal) (b : S1x512.Idx → EReal)
    (W : S512x64.Idx → EReal) : S4096x64.Idx → EReal :=
  fun i => ∑ h : Fin 512, max ((∑ j : Fin 4096, A (ix2 (i 0) j) * Y (ix2 j h)) + b (ix2 (0 : Fin 1) h)) 0 * W (ix2 h (i 1))

theorem propReluMul_apply (A : S4096x4096.Idx → EReal) (Y : S4096x512.Idx → EReal) (b : S1x512.Idx → EReal)
    (W : S512x64.Idx → EReal) (p : Fin 4096) (q : Fin 64) :
    propReluMul A Y b W (ix2 p q)
      = ∑ h : Fin 512, max ((∑ j : Fin 4096, A (ix2 p j) * Y (ix2 j h)) + b (ix2 (0 : Fin 1) h)) 0 * W (ix2 h q) := rfl

/-! ## The input blocks at an entry -/

/-- Row `r` of the adjacency's block at point `t` is row `512 t + r` of the adjacency. -/
theorem adj_block2 (c : Dev nD) (t : Fin cfg1.N) (r : Fin 512) (j : Fin 4096) (p : Fin 4096) (hp : p.val = 512 * t.val + r.val) :
    (blk1 V c 0 t : Vec Ideal S512x4096 .bf16) (ix2 r j) = (V c main_v7_0 : S4096x4096.Idx → EReal) (ix2 p j) := by
  obtain ⟨e0, e1, -⟩ := band_index2 t
  show V c main_v7_0 (((cfg1.win 0).blk t).view.emb (ix2 r j)) = V c main_v7_0 (ix2 p j)
  refine congrArg (V c main_v7_0) (funext fun a => Fin.ext ?_)
  match a with
  | ⟨0, _⟩ => show win1_0.index t (0 : Fin 2) * 512 + 1 * r.val = p.val; rw [e0, hp]; omega
  | ⟨1, _⟩ => show win1_0.index t (1 : Fin 2) * 4096 + 1 * j.val = j.val; rw [e1]; omega

/-- The second window's block is its whole array at every point. -/
theorem feat_block2 (c : Dev nD) (t : Fin cfg1.N) (j : Fin 4096) (h : Fin 512) :
    (blk1 V c 1 t : Vec Ideal S4096x512 .bf16) (ix2 j h) = (V c main_v7_1 : S4096x512.Idx → EReal) (ix2 j h) := by
  obtain ⟨-, -, e0, e1, -⟩ := band_index2 t
  show V c main_v7_1 (((cfg1.win 1).blk t).view.emb (ix2 j h)) = V c main_v7_1 (ix2 j h)
  refine congrArg (V c main_v7_1) (funext fun a => Fin.ext ?_)
  match a with
  | ⟨0, _⟩ => show win1_1.index t (0 : Fin 2) * 4096 + 1 * j.val = j.val; rw [e0]; omega
  | ⟨1, _⟩ => show win1_1.index t (1 : Fin 2) * 512 + 1 * h.val = h.val; rw [e1]; omega

/-- The bias row's block is the whole row at every point. -/
theorem bias_block2 (c : Dev nD) (t : Fin cfg1.N) (u : Fin 1) (h : Fin 512) :
    (blk1 V c 2 t : Vec Ideal S1x512 .f32) (ix2 u h) = (V c main_v5 : S1x512.Idx → EReal) (ix2 u h) := by
  obtain ⟨-, -, -, -, e0, e1, -⟩ := band_index2 t
  show V c main_v5 (((cfg1.win 2).blk t).view.emb (ix2 u h)) = V c main_v5 (ix2 u h)
  refine congrArg (V c main_v5) (funext fun a => Fin.ext ?_)
  match a with
  | ⟨0, _⟩ => show win1_2.index t (0 : Fin 2) * 1 + 1 * u.val = u.val; rw [e0]; omega
  | ⟨1, _⟩ => show win1_2.index t (1 : Fin 2) * 512 + 1 * h.val = h.val; rw [e1]; omega

/-- The weight matrix's block is the whole matrix at every point. -/
theorem weight_block2 (c : Dev nD) (t : Fin cfg1.N) (h : Fin 512) (q : Fin 64) :
    (blk1 V c 3 t : Vec Ideal S512x64 .bf16) (ix2 h q) = (V c main_v3 : S512x64.Idx → EReal) (ix2 h q) := by
  obtain ⟨-, -, -, -, -, -, e0, e1, -⟩ := band_index2 t
  show V c main_v3 (((cfg1.win 3).blk t).view.emb (ix2 h q)) = V c main_v3 (ix2 h q)
  refine congrArg (V c main_v3) (funext fun a => Fin.ext ?_)
  match a with
  | ⟨0, _⟩ => show win1_3.index t (0 : Fin 2) * 512 + 1 * h.val = h.val; rw [e0]; omega
  | ⟨1, _⟩ => show win1_3.index t (1 : Fin 2) * 64 + 1 * q.val = q.val; rw [e1]; omega

/-! ## What a point writes back, the cover, and the array after the call -/

/- The body's arithmetic on its four blocks, at an entry of the block it stores. -/
variable (hpay : ∀ (v0 : Vec Ideal S512x4096 .bf16) (v2 : Vec Ideal S4096x512 .bf16) (v5 : Vec Ideal S1x512 .f32)
    (v12 : Vec Ideal S512x64 .bf16) (p : Fin 512) (q : Fin 64),
    k1_pay1 (F := Ideal) v0 v2 v5 v12 (ix2 p q)
      = ∑ h : Fin 512, max ((∑ j : Fin 4096, v0 (ix2 p j) * v2 (ix2 j h)) + v5 (ix2 (0 : Fin 1) h)) 0 * v12 (ix2 h q))

include hpay in
/-- Point `t` writes back band `t` of `propReluMul` of the four arrays as the call finds them. -/
theorem band_written2 (c : Dev nD) (t : Fin cfg1.N) :
    (dat1 (F := Ideal) V c).flushed 4 t
      = ((cfg1.win 4).blk t).view.read (Elt Ideal)
          (propReluMul (V c main_v7_0) (V c main_v7_1) (V c main_v5) (V c main_v3)) := by
  show (cfg1.win 4).cut (grid1.coords t) ((dat1 V c).after 4 t) = _
  rw [dat1_after4]
  unfold out1
  rw [View.canon_unit_zero zero_off2]
  simp only [View.ld_unit_zero (S := S512x4096) zero_off2, View.ld_unit_zero (S := S4096x512) zero_off2,
    View.ld_unit_zero (S := S1x512) zero_off2, View.ld_unit_zero (S := S512x64) zero_off2]
  funext y
  obtain ⟨r, q, rfl⟩ : ∃ (r : Fin 512) (q : Fin 64), y = ix2 r q := ⟨y 0, y 1, eq_ix2 y⟩
  obtain ⟨-, -, -, -, -, -, -, -, e8, e9⟩ := band_index2 t
  have ht : t.val < 8 := lt_of_lt_of_eq t.isLt Gen.N_1
  have hemb : ((cfg1.win 4).blk t).view.emb (ix2 r q) = ix2 (⟨512 * t.val + r.val, by omega⟩ : Fin 4096) q :=
    funext fun a => Fin.ext (by
      match a with
      | ⟨0, _⟩ => show win1_4.index t (0 : Fin 2) * 512 + 1 * r.val = 512 * t.val + r.val; rw [e8]; omega
      | ⟨1, _⟩ => show win1_4.index t (1 : Fin 2) * 64 + 1 * q.val = q.val; rw [e9]; omega)
  show k1_pay1 (F := Ideal) (blk1 V c 0 t) (blk1 V c 1 t) (blk1 V c 2 t) (blk1 V c 3 t) (ix2 r q)
      = propReluMul (V c main_v7_0) (V c main_v7_1) (V c main_v5) (V c main_v3) (((cfg1.win 4).blk t).view.emb (ix2 r q))
  refine (hpay (blk1 V c 0 t) (blk1 V c 1 t) (blk1 V c 2 t) (blk1 V c 3 t) r q).trans ?_
  rw [hemb, propReluMul_apply]
  refine Finset.sum_congr rfl fun h _ => ?_
  rw [bias_block2, weight_block2]
  refine congrArg (fun s => max (s + _) 0 * _) (Finset.sum_congr rfl fun j _ => ?_)
  rw [adj_block2 V c t r j ⟨512 * t.val + r.val, by omega⟩ rfl, feat_block2]

/-- An index of the output array is in point `t`'s band iff each coordinate is in the band's range on its axis. -/
theorem mem_band2 (t : Fin cfg1.N) (i : S4096x64.Idx) :
    i ∈ ((cfg1.win 4).blk t).view.set ↔ ∀ a : Fin 2, win1_4.index t a * S512x64.size a ≤ (i a).val
      ∧ (i a).val < win1_4.index t a * S512x64.size a + S512x64.size a := by
  show i ∈ ((View.whole main_v8).slice (win1_4.rect t)).set ↔ _
  rw [View.set_slice_whole, Rect.mem_set_unit]
  exact Iff.rfl

/-- Every entry of the output lies in the band of the point `row / 512`, which writes back. -/
theorem bands_cover2 (i : S4096x64.Idx) :
    ∃ t : Fin cfg1.N, (cfg1.win 4).flush t = true ∧ i ∈ ((cfg1.win 4).blk t).view.set := by
  have hi0 : (i 0).val < 4096 := (i 0).isLt
  have hi1 : (i 1).val < 64 := (i 1).isLt
  have hN : grid1.N = 8 := Gen.N_1
  let t : Fin cfg1.N := ⟨(i 0).val / 512, by show (i 0).val / 512 < grid1.N; rw [hN]; omega⟩
  obtain ⟨-, -, -, -, -, -, -, -, e8, e9⟩ := band_index2 t
  refine ⟨t, flush1_4 t, ?_⟩
  rw [mem_band2]
  intro a
  match a with
  | ⟨0, _⟩ =>
    show win1_4.index t (0 : Fin 2) * 512 ≤ (i 0).val ∧ (i 0).val < win1_4.index t (0 : Fin 2) * 512 + 512
    rw [e8]; show (i 0).val / 512 * 512 ≤ (i 0).val ∧ (i 0).val < (i 0).val / 512 * 512 + 512; omega
  | ⟨1, _⟩ =>
    show win1_4.index t (1 : Fin 2) * 64 ≤ (i 1).val ∧ (i 1).val < win1_4.index t (1 : Fin 2) * 64 + 64
    rw [e9]; omega

include hpay in
/-- The output array after the call is `propReluMul` of the four arrays as the call finds them. -/
theorem final2_arr (c : Dev nD) :
    (dat1 (F := Ideal) V c).arrAt 4 cfg1.N
      = propReluMul (V c main_v7_0) (V c main_v7_1) (V c main_v5) (V c main_v3) :=
  (dat1 (F := Ideal) V c).arrAt_eq_of_cover 4 (propReluMul (V c main_v7_0) (V c main_v7_1) (V c main_v5) (V c main_v3))
    (fun t _ => band_written2 V hpay c t) bands_cover2

include hpay in
/-- The same at an entry: `∑ h, max (∑ j, A (p, j) · Y (j, h) + b (0, h)) 0 · W (h, q)`, the four arrays named by
    `hA`, `hY`, `hb`, `hW`. -/
theorem final2 (c : Dev nD) (p : Fin 4096) (q : Fin 64)
    (A : S4096x4096.Idx → EReal) (Y : S4096x512.Idx → EReal) (b : S1x512.Idx → EReal) (W : S512x64.Idx → EReal)
    (hA : A = V c main_v7_0) (hY : Y = V c main_v7_1) (hb : b = V c main_v5) (hW : W = V c main_v3) :
    (dat1 (F := Ideal) V c).arrAt 4 cfg1.N (ix2 p q)
      = ∑ h : Fin 512, max ((∑ j : Fin 4096, A (ix2 p j) * Y (ix2 j h)) + b (ix2 (0 : Fin 1) h)) 0 * W (ix2 h q) := by
  subst hA hY hb hW
  rw [final2_arr V hpay c]
  rfl

end Cert.GCN.KV

end
-- ==== Proof.Value3.lean ====
import proofs.«155964_g13073880449845_cont_fleet_838_2_alg».proof.Proof.KI.Stage3
import Idealize.ShloMosaic.Lib.Pipeline.Value
import Idealize.ShloMosaic.Lib.ValueIdx

/-
  The output array of the third call, entry by entry, in exact arithmetic.

  The call runs over 8 grid points. Point `t` reads rows `512 t … 512 t + 511` of the `4096 × 4096` adjacency `A`,
  the whole `4096 × 64` matrix `Y` and the whole `1 × 64` bias row `b`, and writes rows `512 t … 512 t + 511` of the
  `4096 × 64` output. Given what the body computes on its blocks at an entry `(r, q)` — the sum over `j` of
  `A-block (r, j) · Y (j, q)`, plus `b (0, q)` — the band point `t` writes is the same band of ONE whole-array function,

      out (p, q) = ∑ j, A (p, j) · Y (j, q) + b (0, q),

  because row `r` of block `t` of `A` is row `512 t + r` of `A`. The eight bands cover the output (row `p` lies in band
  `p / 512`), so the array ends holding that function. The body's arithmetic enters as the hypothesis `hpay`.
-/

noncomputable section

open scoped BigOperators

namespace Cert.GCN.KV

open Cert.KernelIdeal Cert.KernelIdeal.Gen Cert.KernelIdeal.Hand Idealize.ShloMosaic Idealize.ShloMosaic.ValueIdx
  Idealize.ShloMosaic.Pipeline Idealize.ShloMosaic.TcCoe

variable (V : (c : Dev nD) → (b : Ref sig .tc) → Buf (Elt Ideal) ((c : Thread nD τ).loc b))

/-- The zero offsets of a whole-buffer rectangle. -/
theorem zero_off3 : (![0, 0] : Fin 2 → Nat) = fun _ => 0 := funext fun a => by fin_cases a <;> rfl

/-- The block indices of the four windows at every grid point: the adjacency and the output move down one band per
    point; the other two windows stay at their whole array. -/
theorem band_index3 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- `A · Y` with the row `b` added to every row: the whole output as one function of the three arrays. -/
def propBias (A : S4096x4096.Idx → EReal) (Y : S4096x64.Idx → EReal) (b : S1x64.Idx → EReal) : S4096x64.Idx → EReal :=
  fun i => (∑ j : Fin 4096, A (ix2 (i 0) j) * Y (ix2 j (i 1))) + b (ix2 (0 : Fin 1) (i 1))

theorem propBias_apply (A : S4096x4096.Idx → EReal) (Y : S4096x64.Idx → EReal) (b : S1x64.Idx → EReal)
    (p : Fin 4096) (q : Fin 64) :
    propBias A Y b (ix2 p q) = (∑ j : Fin 4096, A (ix2 p j) * Y (ix2 j q)) + b (ix2 (0 : Fin 1) q) := rfl

/-! ## The input blocks at an entry -/

/-- Row `r` of the adjacency's block at point `t` is row `512 t + r` of the adjacency. -/
theorem adj_block3 (c : Dev nD) (t : Fin cfg2.N) (r : Fin 512) (j : Fin 4096) (p : Fin 4096) (hp : p.val = 512 * t.val + r.val) :
    (blk2 V c 0 t : Vec Ideal S512x4096 .bf16) (ix2 r j) = (V c main_v7_0 : S4096x4096.Idx → EReal) (ix2 p j) := by
  obtain ⟨e0, e1, -⟩ := band_index3 t
  show V c main_v7_0 (((cfg2.win 0).blk t).view.emb (ix2 r j)) = V c main_v7_0 (ix2 p j)
  refine congrArg (V c main_v7_0) (funext fun a => Fin.ext ?_)
  match a with
  | ⟨0, _⟩ => show win2_0.index t (0 : Fin 2) * 512 + 1 * r.val = p.val; rw [e0, hp]; omega
  | ⟨1, _⟩ => show win2_0.index t (1 : Fin 2) * 4096 + 1 * j.val = j.val; rw [e1]; omega

/-- The second window's block is its whole array at every point. -/
theorem feat_block3 (c : Dev nD) (t : Fin cfg2.N) (j : Fin 4096) (q : Fin 64) :
    (blk2 V c 1 t : Vec Ideal S4096x64 .bf16) (ix2 j q) = (V c main_v8 : S4096x64.Idx → EReal) (ix2 j q) := by
  obtain ⟨-, -, e0, e1, -⟩ := band_index3 t
  show V c main_v8 (((cfg2.win 1).blk t).view.emb (ix2 j q)) = V c main_v8 (ix2 j q)
  refine congrArg (V c main_v8) (funext fun a => Fin.ext ?_)
  match a with
  | ⟨0, _⟩ => show win2_1.index t (0 : Fin 2) * 4096 + 1 * j.val = j.val; rw [e0]; omega
  | ⟨1, _⟩ => show win2_1.index t (1 : Fin 2) * 64 + 1 * q.val = q.val; rw [e1]; omega

/-- The bias row's block is the whole row at every point. -/
theorem bias_block3 (c : Dev nD) (t : Fin cfg2.N) (u : Fin 1) (q : Fin 64) :
    (blk2 V c 2 t : Vec Ideal S1x64 .f32) (ix2 u q) = (V c main_v6 : S1x64.Idx → EReal) (ix2 u q) := by
  obtain ⟨-, -, -, -, e0, e1, -⟩ := band_index3 t
  show V c main_v6 (((cfg2.win 2).blk t).view.emb (ix2 u q)) = V c main_v6 (ix2 u q)
  refine congrArg (V c main_v6) (funext fun a => Fin.ext ?_)
  match a with
  | ⟨0, _⟩ => show win2_2.index t (0 : Fin 2) * 1 + 1 * u.val = u.val; rw [e0]; omega
  | ⟨1, _⟩ => show win2_2.index t (1 : Fin 2) * 64 + 1 * q.val = q.val; rw [e1]; omega

/-! ## What a point writes back, the cover, and the array after the call -/

/- The body's arithmetic on its three blocks, at an entry of the block it stores. -/
variable (hpay : ∀ (v0 : Vec Ideal S512x4096 .bf16) (v2 : Vec Ideal S4096x64 .bf16) (v5 : Vec Ideal S1x64 .f32)
    (p : Fin 512) (q : Fin 64),
    k2_pay1 (F := Ideal) v0 v2 v5 (ix2 p q) = (∑ j : Fin 4096, v0 (ix2 p j) * v2 (ix2 j q)) + v5 (ix2 (0 : Fin 1) q))

include hpay in
/-- Point `t` writes back band `t` of `propBias` of the three arrays as the call finds them. -/
theorem band_written3 (c : Dev nD) (t : Fin cfg2.N) :
    (dat2 (F := Ideal) V c).flushed 3 t
      = ((cfg2.win 3).blk t).view.read (Elt Ideal) (propBias (V c main_v7_0) (V c main_v8) (V c main_v6)) := by
  show (cfg2.win 3).cut (grid2.coords t) ((dat2 V c).after 3 t) = _
  rw [dat2_after3]
  unfold out2
  rw [View.canon_unit_zero zero_off3]
  simp only [View.ld_unit_zero (S := S512x4096) zero_off3, View.ld_unit_zero (S := S4096x64) zero_off3,
    View.ld_unit_zero (S := S1x64) zero_off3]
  funext y
  obtain ⟨r, q, rfl⟩ : ∃ (r : Fin 512) (q : Fin 64), y = ix2 r q := ⟨y 0, y 1, eq_ix2 y⟩
  obtain ⟨-, -, -, -, -, -, e6, e7⟩ := band_index3 t
  have ht : t.val < 8 := lt_of_lt_of_eq t.isLt Gen.N_2
  have hemb : ((cfg2.win 3).blk t).view.emb (ix2 r q) = ix2 (⟨512 * t.val + r.val, by omega⟩ : Fin 4096) q :=
    funext fun a => Fin.ext (by
      match a with
      | ⟨0, _⟩ => show win2_3.index t (0 : Fin 2) * 512 + 1 * r.val = 512 * t.val + r.val; rw [e6]; omega
      | ⟨1, _⟩ => show win2_3.index t (1 : Fin 2) * 64 + 1 * q.val = q.val; rw [e7]; omega)
  show k2_pay1 (F := Ideal) (blk2 V c 0 t) (blk2 V c 1 t) (blk2 V c 2 t) (ix2 r q)
      = propBias (V c main_v7_0) (V c main_v8) (V c main_v6) (((cfg2.win 3).blk t).view.emb (ix2 r q))
  refine (hpay (blk2 V c 0 t) (blk2 V c 1 t) (blk2 V c 2 t) r q).trans ?_
  rw [hemb, propBias_apply, bias_block3]
  refine congrArg (· + _) (Finset.sum_congr rfl fun j _ => ?_)
  rw [adj_block3 V c t r j ⟨512 * t.val + r.val, by omega⟩ rfl, feat_block3]

/-- An index of the output array is in point `t`'s band iff each coordinate is in the band's range on its axis. -/
theorem mem_band3 (t : Fin cfg2.N) (i : S4096x64.Idx) :
    i ∈ ((cfg2.win 3).blk t).view.set ↔ ∀ a : Fin 2, win2_3.index t a * S512x64.size a ≤ (i a).val
      ∧ (i a).val < win2_3.index t a * S512x64.size a + S512x64.size a := by
  show i ∈ ((View.whole main_v9).slice (win2_3.rect t)).set ↔ _
  rw [View.set_slice_whole, Rect.mem_set_unit]
  exact Iff.rfl

/-- Every entry of the output lies in the band of the point `row / 512`, which writes back. -/
theorem bands_cover3 (i : S4096x64.Idx) :
    ∃ t : Fin cfg2.N, (cfg2.win 3).flush t = true ∧ i ∈ ((cfg2.win 3).blk t).view.set := by
  have hi0 : (i 0).val < 4096 := (i 0).isLt
  have hi1 : (i 1).val < 64 := (i 1).isLt
  have hN : grid2.N = 8 := Gen.N_2
  let t : Fin cfg2.N := ⟨(i 0).val / 512, by show (i 0).val / 512 < grid2.N; rw [hN]; omega⟩
  obtain ⟨-, -, -, -, -, -, e6, e7⟩ := band_index3 t
  refine ⟨t, flush2_3 t, ?_⟩
  rw [mem_band3]
  intro a
  match a with
  | ⟨0, _⟩ =>
    show win2_3.index t (0 : Fin 2) * 512 ≤ (i 0).val ∧ (i 0).val < win2_3.index t (0 : Fin 2) * 512 + 512
    rw [e6]; show (i 0).val / 512 * 512 ≤ (i 0).val ∧ (i 0).val < (i 0).val / 512 * 512 + 512; omega
  | ⟨1, _⟩ =>
    show win2_3.index t (1 : Fin 2) * 64 ≤ (i 1).val ∧ (i 1).val < win2_3.index t (1 : Fin 2) * 64 + 64
    rw [e7]; omega

include hpay in
/-- The output array after the call is `propBias` of the three arrays as the call finds them. -/
theorem final3_arr (c : Dev nD) :
    (dat2 (F := Ideal) V c).arrAt 3 cfg2.N = propBias (V c main_v7_0) (V c main_v8) (V c main_v6) :=
  (dat2 (F := Ideal) V c).arrAt_eq_of_cover 3 (propBias (V c main_v7_0) (V c main_v8) (V c main_v6))
    (fun t _ => band_written3 V hpay c t) bands_cover3

include hpay in
/-- The same at an entry: `∑ j, A (p, j) · Y (j, q) + b (0, q)`, the three arrays named by `hA`, `hY`, `hb`. -/
theorem final3 (c : Dev nD) (p : Fin 4096) (q : Fin 64)
    (A : S4096x4096.Idx → EReal) (Y : S4096x64.Idx → EReal) (b : S1x64.Idx → EReal)
    (hA : A = V c main_v7_0) (hY : Y = V c main_v8) (hb : b = V c main_v6) :
    (dat2 (F := Ideal) V c).arrAt 3 cfg2.N (ix2 p q)
      = (∑ j : Fin 4096, A (ix2 p j) * Y (ix2 j q)) + b (ix2 (0 : Fin 1) q) := by
  subst hA hY hb
  rw [final3_arr V hpay c]
  rfl

end Cert.GCN.KV

end
-- ==== Proof.KHost.lean ====
/-
  The seven host operations that run before the three stages, read back: four format changes of argument arrays, which
  in exact arithmetic leave every entry as it was, and three casts of a length-`n` vector to a `[1, n]` row, which read
  the vector at the column.
-/
import proofs.«155964_g13073880449845_cont_fleet_838_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.GCN.HostRead

open Idealize.ShloMosaic Idealize.ShloMosaic.ValueIdx Cert.KernelIdeal Cert.KernelIdeal.Gen

/-! ## The four format changes -/

/-- After the host operations the buffer `main_v0` holds the argument `main_arg0` with its format changed. -/
theorem v0_eq (V : Valuation τ sig (Elt Ideal)) :
    StableHlo.after (hostOps0 (F := Ideal)) V (Proc.devRef .tc main_v0)
      = truncf (F := Ideal) (s := S4096x512) (φ := .f32) .bf16 (V (Proc.devRef .tc main_arg0)) bitsLt_bf16_f32 := by
  after_results <;> rfl

/-- Read at an entry, that is the argument's entry: a format change is the identity in exact arithmetic. -/
theorem v0_apply (V : Valuation τ sig (Elt Ideal)) (p : Fin 4096) (q : Fin 512) :
    StableHlo.after (hostOps0 (F := Ideal)) V (Proc.devRef .tc main_v0) (ix2 p q)
      = V (Proc.devRef .tc main_arg0) (ix2 p q) := by
  rw [v0_eq]
  rfl

/-- After the host operations the buffer `main_v1` holds the argument `main_arg2` with its format changed. -/
theorem v1_eq (V : Valuation τ sig (Elt Ideal)) :
    StableHlo.after (hostOps0 (F := Ideal)) V (Proc.devRef .tc main_v1)
      = truncf (F := Ideal) (s := S512x512) (φ := .f32) .bf16 (V (Proc.devRef .tc main_arg2)) bitsLt_bf16_f32 := by
  after_results <;> rfl

/-- Read at an entry, that is the argument's entry: a format change is the identity in exact arithmetic. -/
theorem v1_apply (V : Valuation τ sig (Elt Ideal)) (p : Fin 512) (q : Fin 512) :
    StableHlo.after (hostOps0 (F := Ideal)) V (Proc.devRef .tc main_v1) (ix2 p q)
      = V (Proc.devRef .tc main_arg2) (ix2 p q) := by
  rw [v1_eq]
  rfl

/-- After the host operations the buffer `main_v2` holds the argument `main_arg4` with its format changed. -/
theorem v2_eq (V : Valuation τ sig (Elt Ideal)) :
    StableHlo.after (hostOps0 (F := Ideal)) V (Proc.devRef .tc main_v2)
      = truncf (F := Ideal) (s := S512x512) (φ := .f32) .bf16 (V (Proc.devRef .tc main_arg4)) bitsLt_bf16_f32 := by
  after_results <;> rfl

/-- Read at an entry, that is the argument's entry: a format change is the identity in exact arithmetic. -/
theorem v2_apply (V : Valuation τ sig (Elt Ideal)) (p : Fin 512) (q : Fin 512) :
    StableHlo.after (hostOps0 (F := Ideal)) V (Proc.devRef .tc main_v2) (ix2 p q)
      = V (Proc.devRef .tc main_arg4) (ix2 p q) := by
  rw [v2_eq]
  rfl

/-- After the host operations the buffer `main_v3` holds the argument `main_arg6` with its format changed. -/
theorem v3_eq (V : Valuation τ sig (Elt Ideal)) :
    StableHlo.after (hostOps0 (F := Ideal)) V (Proc.devRef .tc main_v3)
      = truncf (F := Ideal) (s := S512x64) (φ := .f32) .bf16 (V (Proc.devRef .tc main_arg6)) bitsLt_bf16_f32 := by
  after_results <;> rfl

/-- Read at an entry, that is the argument's entry: a format change is the identity in exact arithmetic. -/
theorem v3_apply (V : Valuation τ sig (Elt Ideal)) (p : Fin 512) (q : Fin 64) :
    StableHlo.after (hostOps0 (F := Ideal)) V (Proc.devRef .tc main_v3) (ix2 p q)
      = V (Proc.devRef .tc main_arg6) (ix2 p q) := by
  rw [v3_eq]
  rfl

/-! ## The three vectors laid out as rows -/

/-- After the host operations the buffer `main_v4` holds the length-`512` argument `main_arg3` cast to the row
    `[1, 512]`. -/
theorem v4_eq (V : Valuation τ sig (Elt Ideal)) :
    StableHlo.after (hostOps0 (F := Ideal)) V (Proc.devRef .tc main_v4)
      = shapeCast S1x512 (V (Proc.devRef .tc main_arg3)) shapeCasts_S512_S1x512 := by
  after_results <;> rfl

/-- Read at column `h` of its one row, that is the vector at `h`. -/
theorem v4_apply (V : Valuation τ sig (Elt Ideal)) (h : Fin 512) :
    StableHlo.after (hostOps0 (F := Ideal)) V (Proc.devRef .tc main_v4) (ix2 (0 : Fin 1) h)
      = V (Proc.devRef .tc main_arg3) (ix1 h) := by
  rw [v4_eq]
  exact shapeCast_a_1a_apply _ _ _ _

/-- After the host operations the buffer `main_v5` holds the length-`512` argument `main_arg5` cast to the row
    `[1, 512]`. -/
theorem v5_eq (V : Valuation τ sig (Elt Ideal)) :
    StableHlo.after (hostOps0 (F := Ideal)) V (Proc.devRef .tc main_v5)
      = shapeCast S1x512 (V (Proc.devRef .tc main_arg5)) shapeCasts_S512_S1x512 := by
  after_results <;> rfl

/-- Read at column `h` of its one row, that is the vector at `h`. -/
theorem v5_apply (V : Valuation τ sig (Elt Ideal)) (h : Fin 512) :
    StableHlo.after (hostOps0 (F := Ideal)) V (Proc.devRef .tc main_v5) (ix2 (0 : Fin 1) h)
      = V (Proc.devRef .tc main_arg5) (ix1 h) := by
  rw [v5_eq]
  exact shapeCast_a_1a_apply _ _ _ _

/-- After the host operations the buffer `main_v6` holds the length-`64` argument `main_arg7` cast to the row
    `[1, 64]`. -/
theorem v6_eq (V : Valuation τ sig (Elt Ideal)) :
    StableHlo.after (hostOps0 (F := Ideal)) V (Proc.devRef .tc main_v6)
      = shapeCast S1x64 (V (Proc.devRef .tc main_arg7)) shapeCasts_S64_S1x64 := by
  after_results <;> rfl

/-- Read at column `h` of its one row, that is the vector at `h`. -/
theorem v6_apply (V : Valuation τ sig (Elt Ideal)) (h : Fin 64) :
    StableHlo.after (hostOps0 (F := Ideal)) V (Proc.devRef .tc main_v6) (ix2 (0 : Fin 1) h)
      = V (Proc.devRef .tc main_arg7) (ix1 h) := by
  rw [v6_eq]
  exact shapeCast_a_1a_apply _ _ _ _

end Cert.GCN.HostRead

end
-- ==== Proof.Spec.lean ====
/-
  The three-layer graph convolution as one function of its eight argument arrays, entry by entry, on the
  extended reals.

  With `A` the dense adjacency, `X` the features and `relu z = max z 0`:

      out = A · (relu (A · (relu (A · (X · W0) + b0) · W1) + b1) · Wc) + bc

  where `·` is the matrix product and a bias vector is added to every row. Every product is a plain finite
  sum of products; nothing is distributed or cancelled, so no entry needs to be finite.  Matrices are written as
  functions of their two coordinates, so that a row block of a product is visibly the product of the row block.
-/
import Idealize.ShloMosaic.PureOps.Ideal
import Idealize.ShloMosaic.Lib.ValueIdx

noncomputable section

open scoped BigOperators

namespace Cert.GCN

open Idealize.ShloMosaic Idealize.ShloMosaic.ValueIdx

/-- A matrix of extended reals by its two coordinates. -/
abbrev Mx (a b : Nat) : Type := Fin a → Fin b → EReal

/-- The matrix product. -/
def mul {a k b : Nat} (x : Mx a k) (y : Mx k b) : Mx a b := fun p q => ∑ j : Fin k, x p j * y j q

/-- One propagation step followed by the activation: `relu (A · Y + bias)`, the bias added to every row. -/
def act {n r k : Nat} (A : Mx r n) (Y : Mx n k) (bias : Fin k → EReal) : Mx r k :=
  fun p q => max (mul A Y p q + bias q) 0

/-- The first stage's two carried matrices and the later stages, named as the kernel computes them. -/
def y0 (X : Mx 4096 512) (W0 : Mx 512 512) : Mx 4096 512 := mul X W0
def y1 (X : Mx 4096 512) (A : Mx 4096 4096) (W0 : Mx 512 512) (b0 : Fin 512 → EReal) (W1 : Mx 512 512) : Mx 4096 512 :=
  mul (act A (y0 X W0) b0) W1
def y2 (X : Mx 4096 512) (A : Mx 4096 4096) (W0 : Mx 512 512) (b0 : Fin 512 → EReal) (W1 : Mx 512 512)
    (b1 : Fin 512 → EReal) (Wc : Mx 512 64) : Mx 4096 64 :=
  mul (act A (y1 X A W0 b0 W1) b1) Wc

/-- The network's output. -/
def gcn (X : Mx 4096 512) (A : Mx 4096 4096) (W0 : Mx 512 512) (b0 : Fin 512 → EReal) (W1 : Mx 512 512)
    (b1 : Fin 512 → EReal) (Wc : Mx 512 64) (bc : Fin 64 → EReal) : Mx 4096 64 :=
  fun p q => mul A (y2 X A W0 b0 W1 b1 Wc) p q + bc q

/-- An array of rank 2 as a matrix of its coordinates. -/
def ofArr {a b : Nat} (v : (⟨2, ![a, b]⟩ : Shape).Idx → EReal) : Mx a b := fun p q => v (ix2 p q)
/-- An array of rank 1 as a function of its coordinate. -/
def ofVec {a : Nat} (v : (⟨1, ![a]⟩ : Shape).Idx → EReal) : Fin a → EReal := fun p => v (ix1 p)

end Cert.GCN

end
-- ==== Proof.Bridge.lean ====
import proofs.«155964_g13073880449845_cont_fleet_838_2_alg».proof.Proof.KI.Run
import proofs.«155964_g13073880449845_cont_fleet_838_2_alg».proof.Proof.Value1
import proofs.«155964_g13073880449845_cont_fleet_838_2_alg».proof.Proof.Value2
import proofs.«155964_g13073880449845_cont_fleet_838_2_alg».proof.Proof.Value3
import proofs.«155964_g13073880449845_cont_fleet_838_2_alg».proof.Proof.KPay
import proofs.«155964_g13073880449845_cont_fleet_838_2_alg».proof.Proof.KHost
import proofs.«155964_g13073880449845_cont_fleet_838_2_alg».proof.Proof.Spec

/-
  The kernel's output array, entry by entry, is the three-layer graph convolution of the launched arguments.

  The program is seven host operations and three calls. The contents of a core's buffers are followed segment by
  segment:

  * after the host operations, four buffers hold the features and the three weight matrices (a format change is the
    identity in exact arithmetic), three hold the bias vectors laid out as one row, and the adjacency argument is
    untouched;
  * the first call leaves the adjacency (stored in another format) and `relu (A · (X · W0) + b0) · W1`;
  * the second call reads those two and leaves `relu (A · Y1 + b1) · Wc`; the stored adjacency is only read;
  * the third call leaves `A · Y2 + bc`, which is the network's output.

  Each step is an equality of arrays named by the specification's stages; the sums are never rearranged.
-/

noncomputable section

open scoped BigOperators

namespace Cert.GCN.Bridge

open Cert.KernelIdeal Cert.KernelIdeal.Gen Cert.KernelIdeal.Hand Idealize.ShloMosaic Idealize.ShloMosaic.ValueIdx
  Idealize.ShloMosaic.Pipeline Idealize.ShloMosaic.TcCoe

variable (m : (ℓ : Loc nD τ sig) → Buf (Elt Ideal) ℓ) (c : Dev nD)

/-! ## The eight arguments as launched -/

/-- The features. -/
abbrev a0 : S4096x512.Idx → EReal := m ((c.tc : Thread nD τ).loc main_arg0)
/-- The adjacency. -/
abbrev a1 : S4096x4096.Idx → EReal := m ((c.tc : Thread nD τ).loc main_arg1)
/-- The three weight matrices and the three bias vectors, in the order of the layers. -/
abbrev a2 : S512x512.Idx → EReal := m ((c.tc : Thread nD τ).loc main_arg2)
abbrev a3 : S512.Idx → EReal := m ((c.tc : Thread nD τ).loc main_arg3)
abbrev a4 : S512x512.Idx → EReal := m ((c.tc : Thread nD τ).loc main_arg4)
abbrev a5 : S512.Idx → EReal := m ((c.tc : Thread nD τ).loc main_arg5)
abbrev a6 : S512x64.Idx → EReal := m ((c.tc : Thread nD τ).loc main_arg6)
abbrev a7 : S64.Idx → EReal := m ((c.tc : Thread nD τ).loc main_arg7)

/-- A length-`n` vector laid out as the one row of a `[1, n]` array. -/
def asRow {n : Nat} (v : (⟨1, ![n]⟩ : Shape).Idx → EReal) : (⟨2, ![1, n]⟩ : Shape).Idx → EReal := fun i => v (ix1 (i 1))

/-! ## After the host operations -/

/-- The features' buffer holds the features. -/
theorem host_x : (V1 m c main_v0 : S4096x512.Idx → EReal) = a0 m c := by
  funext i
  obtain ⟨p, q, rfl⟩ : ∃ (p : Fin 4096) (q : Fin 512), i = ix2 p q := ⟨i 0, i 1, eq_ix2 i⟩
  exact Cert.GCN.HostRead.v0_apply (W0 m c) p q

/-- The weight buffers hold the weight matrices. -/
theorem host_w0 : (V1 m c main_v1 : S512x512.Idx → EReal) = a2 m c := by
  funext i
  obtain ⟨p, q, rfl⟩ : ∃ (p : Fin 512) (q : Fin 512), i = ix2 p q := ⟨i 0, i 1, eq_ix2 i⟩
  exact Cert.GCN.HostRead.v1_apply (W0 m c) p q

theorem host_w1 : (V1 m c main_v2 : S512x512.Idx → EReal) = a4 m c := by
  funext i
  obtain ⟨p, q, rfl⟩ : ∃ (p : Fin 512) (q : Fin 512), i = ix2 p q := ⟨i 0, i 1, eq_ix2 i⟩
  exact Cert.GCN.HostRead.v2_apply (W0 m c) p q

theorem host_wc : (V1 m c main_v3 : S512x64.Idx → EReal) = a6 m c := by
  funext i
  obtain ⟨p, q, rfl⟩ : ∃ (p : Fin 512) (q : Fin 64), i = ix2 p q := ⟨i 0, i 1, eq_ix2 i⟩
  exact Cert.GCN.HostRead.v3_apply (W0 m c) p q

/-- The bias buffers hold the bias vectors as rows: every index of a `[1, n]` array is `(0, h)`. -/
theorem host_b0 : (V1 m c main_v4 : S1x512.Idx → EReal) = asRow (a3 m c) := by
  funext i
  obtain ⟨u, h, rfl⟩ : ∃ (u : Fin 1) (h : Fin 512), i = ix2 u h := ⟨i 0, i 1, eq_ix2 i⟩
  obtain rfl : u = 0 := Subsingleton.elim _ _
  exact Cert.GCN.HostRead.v4_apply (W0 m c) h

theorem host_b1 : (V1 m c main_v5 : S1x512.Idx → EReal) = asRow (a5 m c) := by
  funext i
  obtain ⟨u, h, rfl⟩ : ∃ (u : Fin 1) (h : Fin 512), i = ix2 u h := ⟨i 0, i 1, eq_ix2 i⟩
  obtain rfl : u = 0 := Subsingleton.elim _ _
  exact Cert.GCN.HostRead.v5_apply (W0 m c) h

theorem host_bc : (V1 m c main_v6 : S1x64.Idx → EReal) = asRow (a7 m c) := by
  funext i
  obtain ⟨u, h, rfl⟩ : ∃ (u : Fin 1) (h : Fin 64), i = ix2 u h := ⟨i 0, i 1, eq_ix2 i⟩
  obtain rfl : u = 0 := Subsingleton.elim _ _
  exact Cert.GCN.HostRead.v6_apply (W0 m c) h

/-- The host operations do not write the adjacency. -/
theorem host_adj : (V1 m c main_arg1 : S4096x4096.Idx → EReal) = a1 m c :=
  W1_of m c main_arg1 (by decide)

/-! ## After the first call -/

/-- The stored adjacency is the adjacency. -/
theorem adj_after1 : (V2 m c main_v7_0 : S4096x4096.Idx → EReal) = a1 m c := by
  funext i
  obtain ⟨p, j, rfl⟩ : ∃ (p : Fin 4096) (j : Fin 4096), i = ix2 p j := ⟨i 0, i 1, eq_ix2 i⟩
  show W2 m c (Proc.devRef .tc (Pipeline.arrRef spec0 5)) (ix2 p j) = _
  rw [W2_arr m c 5]
  exact (Cert.GCN.KV1.final1_adj (V1 m) c p j).trans (congrFun (host_adj m c) (ix2 p j))

/-- `relu (A · (X · W0) + b0) · W1` of the launched arguments, as an array. -/
def y1Arr : S4096x512.Idx → EReal := fun i =>
  Cert.GCN.y1 (Cert.GCN.ofArr (a0 m c)) (Cert.GCN.ofArr (a1 m c)) (Cert.GCN.ofArr (a2 m c)) (Cert.GCN.ofVec (a3 m c))
    (Cert.GCN.ofArr (a4 m c)) (i 0) (i 1)

/-- The first call's second output is that array. -/
theorem y1_after1 : (V2 m c main_v7_1 : S4096x512.Idx → EReal) = y1Arr m c := by
  funext i
  obtain ⟨p, q, rfl⟩ : ∃ (p : Fin 4096) (q : Fin 512), i = ix2 p q := ⟨i 0, i 1, eq_ix2 i⟩
  show W2 m c (Proc.devRef .tc (Pipeline.arrRef spec0 6)) (ix2 p q) = _
  rw [W2_arr m c 6]
  refine (Cert.GCN.KV1.final1_y1 (V1 m) c p q (a1 m c) (a0 m c) (a2 m c) (asRow (a3 m c)) (a4 m c)
    (host_adj m c).symm (host_x m c).symm (host_w0 m c).symm (host_b0 m c).symm (host_w1 m c).symm).trans ?_
  rfl

/-- The buffers the first call has no window on are as the host operations left them. -/
theorem b1_after1 : (V2 m c main_v5 : S1x512.Idx → EReal) = asRow (a5 m c) :=
  (W2_of_ne m c main_v5 (by decide)).trans (host_b1 m c)
theorem wc_after1 : (V2 m c main_v3 : S512x64.Idx → EReal) = a6 m c :=
  (W2_of_ne m c main_v3 (by decide)).trans (host_wc m c)
theorem bc_after1 : (V2 m c main_v6 : S1x64.Idx → EReal) = asRow (a7 m c) :=
  (W2_of_ne m c main_v6 (by decide)).trans (host_bc m c)

/-! ## After the second call -/

/-- `relu (A · Y1 + b1) · Wc` of the launched arguments, as an array. -/
def y2Arr : S4096x64.Idx → EReal := fun i =>
  Cert.GCN.y2 (Cert.GCN.ofArr (a0 m c)) (Cert.GCN.ofArr (a1 m c)) (Cert.GCN.ofArr (a2 m c)) (Cert.GCN.ofVec (a3 m c))
    (Cert.GCN.ofArr (a4 m c)) (Cert.GCN.ofVec (a5 m c)) (Cert.GCN.ofArr (a6 m c)) (i 0) (i 1)

/-- The second call's output is that array. -/
theorem y2_after2 : (V3 m c main_v8 : S4096x64.Idx → EReal) = y2Arr m c := by
  funext i
  obtain ⟨p, q, rfl⟩ : ∃ (p : Fin 4096) (q : Fin 64), i = ix2 p q := ⟨i 0, i 1, eq_ix2 i⟩
  show W3 m c (Proc.devRef .tc (Pipeline.arrRef spec1 4)) (ix2 p q) = _
  rw [W3_arr m c 4]
  refine (Cert.GCN.KV.final2 (V2 m) Cert.GCN.Pay.k1pay1_apply c p q (a1 m c) (y1Arr m c) (asRow (a5 m c)) (a6 m c)
    (adj_after1 m c).symm (y1_after1 m c).symm (b1_after1 m c).symm (wc_after1 m c).symm).trans ?_
  rfl

/-- The stored adjacency is an input of the second call and is left as it was. -/
theorem adj_after2 : (V3 m c main_v7_0 : S4096x4096.Idx → EReal) = a1 m c :=
  ((W3_arr m c 0).trans (((dat1 (V2 m) c).arrAt_in 0 rfl _).trans (dat1_A (V2 m) c 0))).trans (adj_after1 m c)

/-- The output bias's buffer is on no window of the second call. -/
theorem bc_after2 : (V3 m c main_v6 : S1x64.Idx → EReal) = asRow (a7 m c) :=
  (W3_of_ne m c main_v6 (by decide)).trans (bc_after1 m c)

/-! ## After the third call -/

/-- The output array, entry by entry, is the network of the launched arguments. -/
theorem out_entry (p : Fin 4096) (q : Fin 64) :
    (W4 m c (Proc.devRef .tc main_v9) : S4096x64.Idx → EReal) (ix2 p q)
      = Cert.GCN.gcn (Cert.GCN.ofArr (a0 m c)) (Cert.GCN.ofArr (a1 m c)) (Cert.GCN.ofArr (a2 m c)) (Cert.GCN.ofVec (a3 m c))
          (Cert.GCN.ofArr (a4 m c)) (Cert.GCN.ofVec (a5 m c)) (Cert.GCN.ofArr (a6 m c)) (Cert.GCN.ofVec (a7 m c)) p q := by
  show W4 m c (Proc.devRef .tc (Pipeline.arrRef spec2 3)) (ix2 p q) = _
  rw [W4_arr m c 3]
  refine (Cert.GCN.KV.final3 (V3 m) Cert.GCN.Pay.k2pay1_apply c p q (a1 m c) (y2Arr m c) (asRow (a7 m c))
    (adj_after2 m c).symm (y2_after2 m c).symm (bc_after2 m c).symm).trans ?_
  rfl

/-- The same, with the output array and the eight arguments named by equations. -/
theorem out_value (p : Fin 4096) (q : Fin 64) (O : S4096x64.Idx → EReal) (hO : O = W4 m c (Proc.devRef .tc main_v9))
    (x0 : S4096x512.Idx → EReal) (x1 : S4096x4096.Idx → EReal) (x2 : S512x512.Idx → EReal) (x3 : S512.Idx → EReal)
    (x4 : S512x512.Idx → EReal) (x5 : S512.Idx → EReal) (x6 : S512x64.Idx → EReal) (x7 : S64.Idx → EReal)
    (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) (h5 : x5 = m ((c.tc : Thread nD τ).loc main_arg5))
    (h6 : x6 = m ((c.tc : Thread nD τ).loc main_arg6)) (h7 : x7 = m ((c.tc : Thread nD τ).loc main_arg7)) :
    O (ix2 p q) = Cert.GCN.gcn (Cert.GCN.ofArr x0) (Cert.GCN.ofArr x1) (Cert.GCN.ofArr x2) (Cert.GCN.ofVec x3)
      (Cert.GCN.ofArr x4) (Cert.GCN.ofVec x5) (Cert.GCN.ofArr x6) (Cert.GCN.ofVec x7) p q := by
  subst hO h0 h1 h2 h3 h4 h5 h6 h7
  exact out_entry m c p q

end Cert.GCN.Bridge

end
-- ==== Proof.RefValue.lean ====
import proofs.«155964_g13073880449845_cont_fleet_838_2_alg».proof.Proof.Gen.ReferenceIdeal.Read
import proofs.«155964_g13073880449845_cont_fleet_838_2_alg».proof.Proof.Spec

/-
  The reference program computes the three-layer graph convolution of the specification.

  The reference is seventeen array operations: six matrix products, three bias additions (each through two
  broadcasts of the bias vector), and two activations (a maximum with a broadcast zero).  Each is read at an entry
  `(p, q)` and identified with the corresponding stage of the specification: a product of two arrays is the
  specification's `mul` of the two matrices of coordinates, a bias broadcast over the rows reads the bias at the
  column, and the activation constant is zero.  Chaining the stages gives the output entry by entry.  Every step is
  an equality of finite sums term by term; nothing is rearranged.
-/

noncomputable section

open scoped BigOperators

namespace Cert.GCN.Ref

open Idealize.ShloMosaic Idealize.ShloMosaic.ValueIdx Cert.ReferenceIdeal Cert.ReferenceIdeal.Read

/-! ## The operand indices of the six products, at an entry given by its coordinates -/

theorem lidx_v0 (p : Fin 4096) (q : Fin 512) (k : Fin 512) : lidx_main_v0 (ix2 p q) k = ix2 p k := funext fun a => Fin.ext (by match a with | ⟨0, _⟩ => rfl | ⟨1, _⟩ => rfl)
theorem ridx_v0 (p : Fin 4096) (q : Fin 512) (k : Fin 512) : ridx_main_v0 (ix2 p q) k = ix2 k q := funext fun a => Fin.ext (by match a with | ⟨0, _⟩ => rfl | ⟨1, _⟩ => rfl)
theorem lidx_v1 (p : Fin 4096) (q : Fin 512) (k : Fin 4096) : lidx_main_v1 (ix2 p q) k = ix2 p k := funext fun a => Fin.ext (by match a with | ⟨0, _⟩ => rfl | ⟨1, _⟩ => rfl)
theorem ridx_v1 (p : Fin 4096) (q : Fin 512) (k : Fin 4096) : ridx_main_v1 (ix2 p q) k = ix2 k q := funext fun a => Fin.ext (by match a with | ⟨0, _⟩ => rfl | ⟨1, _⟩ => rfl)
theorem lidx_v6 (p : Fin 4096) (q : Fin 512) (k : Fin 512) : lidx_main_v6 (ix2 p q) k = ix2 p k := funext fun a => Fin.ext (by match a with | ⟨0, _⟩ => rfl | ⟨1, _⟩ => rfl)
theorem ridx_v6 (p : Fin 4096) (q : Fin 512) (k : Fin 512) : ridx_main_v6 (ix2 p q) k = ix2 k q := funext fun a => Fin.ext (by match a with | ⟨0, _⟩ => rfl | ⟨1, _⟩ => rfl)
theorem lidx_v7 (p : Fin 4096) (q : Fin 512) (k : Fin 4096) : lidx_main_v7 (ix2 p q) k = ix2 p k := funext fun a => Fin.ext (by match a with | ⟨0, _⟩ => rfl | ⟨1, _⟩ => rfl)
theorem ridx_v7 (p : Fin 4096) (q : Fin 512) (k : Fin 4096) : ridx_main_v7 (ix2 p q) k = ix2 k q := funext fun a => Fin.ext (by match a with | ⟨0, _⟩ => rfl | ⟨1, _⟩ => rfl)
theorem lidx_v12 (p : Fin 4096) (q : Fin 64) (k : Fin 512) : lidx_main_v12 (ix2 p q) k = ix2 p k := funext fun a => Fin.ext (by match a with | ⟨0, _⟩ => rfl | ⟨1, _⟩ => rfl)
theorem ridx_v12 (p : Fin 4096) (q : Fin 64) (k : Fin 512) : ridx_main_v12 (ix2 p q) k = ix2 k q := funext fun a => Fin.ext (by match a with | ⟨0, _⟩ => rfl | ⟨1, _⟩ => rfl)
theorem lidx_v13 (p : Fin 4096) (q : Fin 64) (k : Fin 4096) : lidx_main_v13 (ix2 p q) k = ix2 p k := funext fun a => Fin.ext (by match a with | ⟨0, _⟩ => rfl | ⟨1, _⟩ => rfl)
theorem ridx_v13 (p : Fin 4096) (q : Fin 64) (k : Fin 4096) : ridx_main_v13 (ix2 p q) k = ix2 k q := funext fun a => Fin.ext (by match a with | ⟨0, _⟩ => rfl | ⟨1, _⟩ => rfl)

/-! ## The three biases, each broadcast over the rows, and the two activation constants -/

/-- The first bias at `(p, q)` is the bias vector at `q`. -/
theorem bias0 (x3 : (⟨S512, .f32⟩ : BufTy).Contents (Elt Ideal)) (p : Fin 4096) (q : Fin 512) :
    val_main_v3 (F := Ideal) x3 (ix2 p q) = ofVec x3 q := by
  rw [val_main_v3_apply, val_main_v2_apply]
  exact congrArg x3 (funext fun a => Fin.ext (by match a with | ⟨0, _⟩ => rfl))

/-- The second bias at `(p, q)` is the bias vector at `q`. -/
theorem bias1 (x5 : (⟨S512, .f32⟩ : BufTy).Contents (Elt Ideal)) (p : Fin 4096) (q : Fin 512) :
    val_main_v9 (F := Ideal) x5 (ix2 p q) = ofVec x5 q := by
  rw [val_main_v9_apply, val_main_v8_apply]
  exact congrArg x5 (funext fun a => Fin.ext (by match a with | ⟨0, _⟩ => rfl))

/-- The output bias at `(p, q)` is the bias vector at `q`. -/
theorem bias2 (x7 : (⟨S64, .f32⟩ : BufTy).Contents (Elt Ideal)) (p : Fin 4096) (q : Fin 64) :
    val_main_v15 (F := Ideal) x7 (ix2 p q) = ofVec x7 q := by
  rw [val_main_v15_apply, val_main_v14_apply]
  exact congrArg x7 (funext fun a => Fin.ext (by match a with | ⟨0, _⟩ => rfl))

/-- The first activation's constant array is zero at every entry. -/
theorem zero0 (i : S4096x512.Idx) : val_main_call0_v0 (F := Ideal) i = 0 := by
  rw [val_main_call0_v0_apply, val_main_call0_cst_apply]
  exact Ideal.ofBits_zero_f32

/-- The second activation's constant array is zero at every entry. -/
theorem zero1 (i : S4096x512.Idx) : val_main_call1_v0 (F := Ideal) i = 0 := by
  rw [val_main_call1_v0_apply, val_main_call1_cst_apply]
  exact Ideal.ofBits_zero_f32

/-! ## The stages -/

/-- `X · W0`. -/
theorem stage_v0 (x0 : (⟨S4096x512, .f32⟩ : BufTy).Contents (Elt Ideal)) (x2 : (⟨S512x512, .f32⟩ : BufTy).Contents (Elt Ideal)) (p : Fin 4096) (q : Fin 512) :
    val_main_v0 (F := Ideal) x0 x2 (ix2 p q) = y0 (ofArr x0) (ofArr x2) p q := by
  rw [val_main_v0_apply]
  show _ = mul (ofArr x0) (ofArr x2) p q
  refine Finset.sum_congr rfl fun k _ => ?_
  rw [lidx_v0, ridx_v0]
  rfl

/-- `A · (X · W0)`. -/
theorem stage_v1 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (p : Fin 4096) (q : Fin 512) :
    val_main_v1 (F := Ideal) x0 x1 x2 (ix2 p q) = mul (ofArr x1) (y0 (ofArr x0) (ofArr x2)) p q := by
  rw [val_main_v1_apply]
  refine Finset.sum_congr rfl fun k _ => ?_
  rw [lidx_v1, ridx_v1, stage_v0]
  rfl

/-- `relu (A · (X · W0) + b0)`. -/
theorem stage_v5 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (p : Fin 4096) (q : Fin 512) :
    val_main_v5 (F := Ideal) x0 x1 x2 x3 (ix2 p q) = act (ofArr x1) (y0 (ofArr x0) (ofArr x2)) (ofVec x3) p q := by
  rw [val_main_v5_apply, val_main_v4_apply, stage_v1, bias0, zero0]
  rfl

/-- `relu (…) · W1`. -/
theorem stage_v6 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (p : Fin 4096) (q : Fin 512) :
    val_main_v6 (F := Ideal) x0 x1 x2 x3 x4 (ix2 p q)
      = y1 (ofArr x0) (ofArr x1) (ofArr x2) (ofVec x3) (ofArr x4) p q := by
  rw [val_main_v6_apply]
  show _ = mul (act (ofArr x1) (y0 (ofArr x0) (ofArr x2)) (ofVec x3)) (ofArr x4) p q
  refine Finset.sum_congr rfl fun k _ => ?_
  rw [lidx_v6, ridx_v6, stage_v5]
  rfl

/-- `A · (relu (…) · W1)`. -/
theorem stage_v7 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (p : Fin 4096) (q : Fin 512) :
    val_main_v7 (F := Ideal) x0 x1 x2 x3 x4 (ix2 p q)
      = mul (ofArr x1) (y1 (ofArr x0) (ofArr x1) (ofArr x2) (ofVec x3) (ofArr x4)) p q := by
  rw [val_main_v7_apply]
  refine Finset.sum_congr rfl fun k _ => ?_
  rw [lidx_v7, ridx_v7, stage_v6]
  rfl

/-- The second activation. -/
theorem stage_v11 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (p : Fin 4096) (q : Fin 512) :
    val_main_v11 (F := Ideal) x0 x1 x2 x3 x4 x5 (ix2 p q)
      = act (ofArr x1) (y1 (ofArr x0) (ofArr x1) (ofArr x2) (ofVec x3) (ofArr x4)) (ofVec x5) p q := by
  rw [val_main_v11_apply, val_main_v10_apply, stage_v7, bias1, zero1]
  rfl

/-- `relu (…) · Wc`. -/
theorem stage_v12 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x64, .f32⟩ : BufTy).Contents (Elt Ideal)) (p : Fin 4096) (q : Fin 64) :
    val_main_v12 (F := Ideal) x0 x1 x2 x3 x4 x5 x6 (ix2 p q)
      = y2 (ofArr x0) (ofArr x1) (ofArr x2) (ofVec x3) (ofArr x4) (ofVec x5) (ofArr x6) p q := by
  rw [val_main_v12_apply]
  show _ = mul (act (ofArr x1) (y1 (ofArr x0) (ofArr x1) (ofArr x2) (ofVec x3) (ofArr x4)) (ofVec x5)) (ofArr x6) p q
  refine Finset.sum_congr rfl fun k _ => ?_
  rw [lidx_v12, ridx_v12, stage_v11]
  rfl

/-- `A · (relu (…) · Wc)`. -/
theorem stage_v13 (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x64, .f32⟩ : BufTy).Contents (Elt Ideal)) (p : Fin 4096) (q : Fin 64) :
    val_main_v13 (F := Ideal) x0 x1 x2 x3 x4 x5 x6 (ix2 p q)
      = mul (ofArr x1) (y2 (ofArr x0) (ofArr x1) (ofArr x2) (ofVec x3) (ofArr x4) (ofVec x5) (ofArr x6)) p q := by
  rw [val_main_v13_apply]
  refine Finset.sum_congr rfl fun k _ => ?_
  rw [lidx_v13, ridx_v13, stage_v12]
  rfl

/-- The reference's output, entry by entry, is the specification's network. -/
theorem ref_is_gcn (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x64, .f32⟩ : BufTy).Contents (Elt Ideal)) (x7 : (⟨S64, .f32⟩ : BufTy).Contents (Elt Ideal)) (p : Fin 4096) (q : Fin 64) :
    val_main_v16 (F := Ideal) x0 x1 x2 x3 x4 x5 x6 x7 (ix2 p q)
      = Cert.GCN.gcn (Cert.GCN.ofArr x0) (Cert.GCN.ofArr x1) (Cert.GCN.ofArr x2) (Cert.GCN.ofVec x3)
          (Cert.GCN.ofArr x4) (Cert.GCN.ofVec x5) (Cert.GCN.ofArr x6) (Cert.GCN.ofVec x7) p q := by
  rw [val_main_v16_apply, stage_v13, bias2]
  rfl

end Cert.GCN.Ref

end
-- ==== Proof.lean ====
/-
  A three-layer graph convolution on a dense adjacency matrix,

      out = A · (relu (A · (relu (A · (X · W0) + b0) · W1) + b1) · Wc) + bc,

  computed by three tiled kernels against the plain formula.

  The kernel works on bands of 512 rows of `A`.  Its first call computes `X · W0` once, at the first grid point,
  into a scratch buffer that the later points read, and writes band by band the adjacency rounded to bf16 and
  `relu (A · (X · W0) + b0) · W1`; the second call writes `relu (A · Y1 + b1) · Wc`; the third `A · Y2 + bc`.
  On the extended reals rounding is the identity and every matrix product is a plain finite sum, and the kernel
  groups its products exactly as the formula does; a band of a product is the product of the band.  So the two
  sides are the same function of the eight argument arrays, entry by entry, and no entry needs to be finite:
  the precondition is never opened.

  The frames: each program runs to the end without a fault and leaves its arguments unchanged.  For the two
  kernel programs this is the run of their four segments (the host roundings and reshapes, then the three calls),
  each call's body run once per case — the first call's scratch is carried from point to point holding the same
  matrix after every point.  For the reference it is its run with the result dropped.
-/
import proofs.«155964_g13073880449845_cont_fleet_838_2_alg».proof.Defs
import proofs.«155964_g13073880449845_cont_fleet_838_2_alg».proof.Proof.Gen.Kernel
import proofs.«155964_g13073880449845_cont_fleet_838_2_alg».proof.Proof.Gen.KernelIdeal
import proofs.«155964_g13073880449845_cont_fleet_838_2_alg».proof.Proof.Gen.ReferenceIdeal
import proofs.«155964_g13073880449845_cont_fleet_838_2_alg».proof.Proof.Gen.Pre_finite_inputs
import proofs.«155964_g13073880449845_cont_fleet_838_2_alg».proof.Proof.K.Run
import proofs.«155964_g13073880449845_cont_fleet_838_2_alg».proof.Proof.KI.Run
import proofs.«155964_g13073880449845_cont_fleet_838_2_alg».proof.Proof.Bridge
import proofs.«155964_g13073880449845_cont_fleet_838_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

section
open Cert.KernelIdeal Cert.KernelIdeal.Gen Cert.KernelIdeal.Hand

/-- Both idealized programs end with the same result array: the kernel's last buffer contents at the result, which
    entry by entry is the network's formula of the arguments, and so is the reference's composed term. -/
theorem algebraic : Cert.algebraic_KernelIdeal_ReferenceIdeal := by
  intro m ρ m' ρ' _ hagree
  refine ⟨fun c => W4 m c (Proc.devRef .tc main_v9), ?_, ?_⟩
  · exact (θ_run Cert.KernelIdeal.defs _ _).mono (fun r h c =>
      ⟨h c _ (mem_uc main_v9 (by decide)),
       (h c _ (mem_uc main_arg0 (by decide))).trans (W4_bypass m c main_arg0 (by decide) (by decide) (by decide) (by decide)),
       (h c _ (mem_uc main_arg1 (by decide))).trans (W4_adj m c),
       (h c _ (mem_uc main_arg2 (by decide))).trans (W4_bypass m c main_arg2 (by decide) (by decide) (by decide) (by decide)),
       (h c _ (mem_uc main_arg3 (by decide))).trans (W4_bypass m c main_arg3 (by decide) (by decide) (by decide) (by decide)),
       (h c _ (mem_uc main_arg4 (by decide))).trans (W4_bypass m c main_arg4 (by decide) (by decide) (by decide) (by decide)),
       (h c _ (mem_uc main_arg5 (by decide))).trans (W4_bypass m c main_arg5 (by decide) (by decide) (by decide) (by decide)),
       (h c _ (mem_uc main_arg6 (by decide))).trans (W4_bypass m c main_arg6 (by decide) (by decide) (by decide) (by decide)),
       (h c _ (mem_uc main_arg7 (by decide))).trans (W4_bypass m c main_arg7 (by decide) (by decide) (by decide) (by decide))⟩)
      (run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v16_eq (F := Ideal) _ _ _ _ _ _ _ _).trans ?_
    funext i
    obtain ⟨p, q, rfl⟩ : ∃ (p : Fin 4096) (q : Fin 64), i = ix2 p q := ⟨i 0, i 1, eq_ix2 i⟩
    rw [Cert.GCN.Ref.ref_is_gcn, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.GCN.Bridge.out_value m c p q _ rfl _ _ _ _ _ _ _ _ rfl rfl rfl rfl rfl rfl rfl rfl).symm

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
